-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x16 : Shape := ⟨2, ![262144, 16]⟩
abbrev S262144x3 : Shape := ⟨2, ![262144, 3]⟩
abbrev S262144x8 : Shape := ⟨2, ![262144, 8]⟩
abbrev S128x128 : Shape := ⟨2, ![128, 128]⟩
abbrev S1x128 : Shape := ⟨2, ![1, 128]⟩
abbrev S1024x128 : Shape := ⟨2, ![1024, 128]⟩
abbrev S1024x16 : Shape := ⟨2, ![1024, 16]⟩
abbrev S1x16 : Shape := ⟨2, ![1, 16]⟩
abbrev S_ : Shape := ⟨0, ![]⟩

class Facts : Prop where
  bcast_S_S262144x16 : S_.BroadcastsInDim S262144x16 (![] : Fin 0 → Fin S262144x16.rank)
  reducesTo_S262144x16_S_d0_1 : S262144x16.ReducesTo [0, 1] S_
  h_S_ : 0 < S_.numel
  bcast_S_S262144x3 : S_.BroadcastsInDim S262144x3 (![] : Fin 0 → Fin S262144x3.rank)
  reducesTo_S262144x3_S_d0_1 : S262144x3.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1024x128 : S_.BroadcastsInDim S1024x128 (![] : Fin 0 → Fin S1024x128.rank)
  reducesTo_S1024x128_S_d0_1 : S1024x128.ReducesTo [0, 1] S_
  bcast_S_S1024x16 : S_.BroadcastsInDim S1024x16 (![] : Fin 0 → Fin S1024x16.rank)
  reducesTo_S1024x16_S_d0_1 : S1024x16.ReducesTo [0, 1] S_
  bcast_S_S1x16 : S_.BroadcastsInDim S1x16 (![] : Fin 0 → Fin S1x16.rank)
  reducesTo_S1x16_S_d0_1 : S1x16.ReducesTo [0, 1] S_

variable [Facts]

def fn_part2 {F : FTy → Type} [FloatOps F] (main_arg8 : FVec F S1x16 .f32) (main_v33 : IVec S_ 1) : IVec S_ 1 :=
  let main_v34 : FVec F S1x16 .f32 := Host.absf main_arg8
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  main_v38

def fn_part1 {F : FTy → Type} [FloatOps F] (main_arg5 : FVec F S1024x128 .f32) (main_arg6 : FVec F S1x128 .f32) (main_arg7 : FVec F S1024x16 .f32) (main_arg8 : FVec F S1x16 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1024x128 .f32 := Host.absf main_arg5
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1024x16 .f32 := Host.absf main_arg7
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  fn_part2 (F := F) main_arg8 main_v33

def fn {F : FTy → Type} [FloatOps F] (main_arg0 : FVec F S262144x16 .f32) (main_arg1 : FVec F S262144x3 .f32) (main_arg2 : IVec S262144x8 32) (main_arg3 : FVec F S128x128 .f32) (main_arg4 : FVec F S1x128 .f32) (main_arg5 : FVec F S1024x128 .f32) (main_arg6 : FVec F S1x128 .f32) (main_arg7 : FVec F S1024x16 .f32) (main_arg8 : FVec F S1x16 .f32) : IVec S_ 1 :=
  let main_v0 : FVec F S262144x16 .f32 := Host.absf main_arg0
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_c : IVec S_ 1 := constantI S_ 1 1#1
  let main_v3 : IVec S_ 1 := (fun x v => Host.reduce IntOp.andi x v reducesTo_S262144x16_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_arg6 main_arg7 main_arg8 main_v13 main_v16
-- ==== Kernel.lean ====
abbrev S262144x16 : Shape := ⟨2, ![262144, 16]⟩
abbrev S262144x3 : Shape := ⟨2, ![262144, 3]⟩
abbrev S262144x8 : Shape := ⟨2, ![262144, 8]⟩
abbrev S128x128 : Shape := ⟨2, ![128, 128]⟩
abbrev S1x128 : Shape := ⟨2, ![1, 128]⟩
abbrev S1024x128 : Shape := ⟨2, ![1024, 128]⟩
abbrev S1024x16 : Shape := ⟨2, ![1024, 16]⟩
abbrev S1x16 : Shape := ⟨2, ![1, 16]⟩
abbrev S_ : Shape := ⟨0, ![]⟩
abbrev S262144x8x1 : Shape := ⟨3, ![262144, 8, 1]⟩
abbrev S262144x8x16 : Shape := ⟨3, ![262144, 8, 16]⟩
abbrev S262144x8x3 : Shape := ⟨3, ![262144, 8, 3]⟩
abbrev S262144x128 : Shape := ⟨2, ![262144, 128]⟩
abbrev S1024x8x16 : Shape := ⟨3, ![1024, 8, 16]⟩
abbrev S1024x3 : Shape := ⟨2, ![1024, 3]⟩
abbrev S1024x8x3 : Shape := ⟨3, ![1024, 8, 3]⟩
abbrev S1024x8 : Shape := ⟨2, ![1024, 8]⟩
abbrev S1024x1x3 : Shape := ⟨3, ![1024, 1, 3]⟩
abbrev S1024x1x16 : Shape := ⟨3, ![1024, 1, 16]⟩
abbrev S1024x1 : Shape := ⟨2, ![1024, 1]⟩
abbrev S16x128 : Shape := ⟨2, ![16, 128]⟩
abbrev S262144x8x128 : Shape := ⟨3, ![262144, 8, 128]⟩
abbrev S1024x8x128 : Shape := ⟨3, ![1024, 8, 128]⟩
abbrev S1024x1x128 : Shape := ⟨3, ![1024, 1, 128]⟩
abbrev S128x16 : Shape := ⟨2, ![128, 16]⟩

abbrev nBuf : Space → Nat
  | .hbm => 50
  | .vmem => 28
  | .smem => 0
  | _ => 0

abbrev bufTy : (tb : Table) → Fin (tcTables nBuf tb) → BufTy
  | .hbm, ⟨0, _⟩ => ⟨S262144x16, .f32⟩
  | .hbm, ⟨1, _⟩ => ⟨S262144x3, .f32⟩
  | .hbm, ⟨2, _⟩ => ⟨S262144x8, .i32⟩
  | .hbm, ⟨3, _⟩ => ⟨S128x128, .f32⟩
  | .hbm, ⟨4, _⟩ => ⟨S1x128, .f32⟩
  | .hbm, ⟨5, _⟩ => ⟨S1024x128, .f32⟩
  | .hbm, ⟨6, _⟩ => ⟨S1x128, .f32⟩
  | .hbm, ⟨7, _⟩ => ⟨S1024x16, .f32⟩
  | .hbm, ⟨8, _⟩ => ⟨S1x16, .f32⟩
  | .hbm, ⟨9, _⟩ => ⟨S262144x16, .bf16⟩
  | .hbm, ⟨10, _⟩ => ⟨S_, .i32⟩
  | .hbm, ⟨11, _⟩ => ⟨S262144x8, .i32⟩
  | .hbm, ⟨12, _⟩ => ⟨S262144x8, .i1⟩
  | .hbm, ⟨13, _⟩ => ⟨S_, .i32⟩
  | .hbm, ⟨14, _⟩ => ⟨S262144x8, .i32⟩
  | .hbm, ⟨15, _⟩ => ⟨S262144x8, .i32⟩
  | .hbm, ⟨16, _⟩ => ⟨S262144x8, .i32⟩
  | .hbm, ⟨17, _⟩ => ⟨S262144x8x1, .i32⟩
  | .hbm, ⟨18, _⟩ => ⟨S262144x8x16, .bf16⟩
  | .hbm, ⟨19, _⟩ => ⟨S_, .i32⟩
  | .hbm, ⟨20, _⟩ => ⟨S262144x8, .i32⟩
  | .hbm, ⟨21, _⟩ => ⟨S262144x8, .i1⟩
  | .hbm, ⟨22, _⟩ => ⟨S_, .i32⟩
  | .hbm, ⟨23, _⟩ => ⟨S262144x8, .i32⟩
  | .hbm, ⟨24, _⟩ => ⟨S262144x8, .i32⟩
  | .hbm, ⟨25, _⟩ => ⟨S262144x8, .i32⟩
  | .hbm, ⟨26, _⟩ => ⟨S262144x8x1, .i32⟩
  | .hbm, ⟨27, _⟩ => ⟨S262144x8x3, .f32⟩
  | .hbm, ⟨28, _⟩ => ⟨S262144x128, .bf16⟩
  | .hbm, ⟨29, _⟩ => ⟨S262144x8, .f32⟩
  | .hbm, ⟨30, _⟩ => ⟨S_, .i32⟩
  | .hbm, ⟨31, _⟩ => ⟨S262144x8, .i32⟩
  | .hbm, ⟨32, _⟩ => ⟨S262144x8, .i1⟩
  | .hbm, ⟨33, _⟩ => ⟨S_, .i32⟩
  | .hbm, ⟨34, _⟩ => ⟨S262144x8, .i32⟩
  | .hbm, ⟨35, _⟩ => ⟨S262144x8, .i32⟩
  | .hbm, ⟨36, _⟩ => ⟨S262144x8, .i32⟩
  | .hbm, ⟨37, _⟩ => ⟨S262144x8x1, .i32⟩
  | .hbm, ⟨38, _⟩ => ⟨S262144x8x128, .bf16⟩
  | .hbm, ⟨39, _⟩ => ⟨S262144x128, .bf16⟩
  | .hbm, ⟨40, _⟩ => ⟨S_, .i32⟩
  | .hbm, ⟨41, _⟩ => ⟨S262144x8, .i32⟩
  | .hbm, ⟨42, _⟩ => ⟨S262144x8, .i1⟩
  | .hbm, ⟨43, _⟩ => ⟨S_, .i32⟩
  | .hbm, ⟨44, _⟩ => ⟨S262144x8, .i32⟩
  | .hbm, ⟨45, _⟩ => ⟨S262144x8, .i32⟩
  | .hbm, ⟨46, _⟩ => ⟨S262144x8, .i32⟩
  | .hbm, ⟨47, _⟩ => ⟨S262144x8x1, .i32⟩
  | .hbm, ⟨48, _⟩ => ⟨S262144x8x128, .bf16⟩
  | .hbm, ⟨49, _⟩ => ⟨S262144x16, .f32⟩
  | .local _ .vmem, ⟨0, _⟩ => ⟨S1024x8x16, .bf16⟩
  | .local _ .vmem, ⟨1, _⟩ => ⟨S1024x8x16, .bf16⟩
  | .local _ .vmem, ⟨2, _⟩ => ⟨S1024x3, .f32⟩
  | .local _ .vmem, ⟨3, _⟩ => ⟨S1024x3, .f32⟩
  | .local _ .vmem, ⟨4, _⟩ => ⟨S1024x8x3, .f32⟩
  | .local _ .vmem, ⟨5, _⟩ => ⟨S1024x8x3, .f32⟩
  | .local _ .vmem, ⟨6, _⟩ => ⟨S128x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S1024x8, .f32⟩
  | .local _ .vmem, ⟨11, _⟩ => ⟨S1024x8, .f32⟩
  | .local _ .vmem, ⟨12, _⟩ => ⟨S1024x8x128, .bf16⟩
  | .local _ .vmem, ⟨13, _⟩ => ⟨S1024x8x128, .bf16⟩
  | .local _ .vmem, ⟨14, _⟩ => ⟨S1024x8, .f32⟩
  | .local _ .vmem, ⟨15, _⟩ => ⟨S1024x8, .f32⟩
  | .local _ .vmem, ⟨16, _⟩ => ⟨S1024x128, .f32⟩
  | .local _ .vmem, ⟨17, _⟩ => ⟨S1x128, .f32⟩
  | .local _ .vmem, ⟨18, _⟩ => ⟨S1024x128, .bf16⟩
  | .local _ .vmem, ⟨19, _⟩ => ⟨S1024x128, .bf16⟩
  | .local _ .vmem, ⟨20, _⟩ => ⟨S1024x8x128, .bf16⟩
  | .local _ .vmem, ⟨21, _⟩ => ⟨S1024x8x128, .bf16⟩
  | .local _ .vmem, ⟨22, _⟩ => ⟨S1024x8, .f32⟩
  | .local _ .vmem, ⟨23, _⟩ => ⟨S1024x8, .f32⟩
  | .local _ .vmem, ⟨24, _⟩ => ⟨S1024x16, .f32⟩
  | .local _ .vmem, ⟨25, _⟩ => ⟨S1x16, .f32⟩
  | .local _ .vmem, ⟨26, _⟩ => ⟨S1024x16, .f32⟩
  | .local _ .vmem, ⟨27, _⟩ => ⟨S1024x16, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x8x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![256], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x8x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  bcast_S_S262144x8 : S_.BroadcastsInDim S262144x8 (![] : Fin 0 → Fin S262144x8.rank)
  bcast_S262144x8_S262144x8x1_0_1 : S262144x8.BroadcastsInDim S262144x8x1 (![0, 1] : Fin 2 → Fin S262144x8x1.rank)
  inb_S1024x3_S1024x3_0_0 : ∀ a, (![0, 0] : Fin 2 → Nat) a + S1024x3.size a ≤ S1024x3.size a
  h_S1024x3 : 0 < S1024x3.numel
  inb_S1024x8x3_S1024x8x3_0_0_0 : ∀ a, (![0, 0, 0] : Fin 3 → Nat) a + S1024x8x3.size a ≤ S1024x8x3.size a
  h_S1024x8x3 : 0 < S1024x8x3.numel
  shapeCasts_S1024x8x3_S1024x8x3 : S1024x8x3.ShapeCasts S1024x8x3
  shapeCasts_S1024x3_S1024x1x3 : S1024x3.ShapeCasts S1024x1x3
  broadcasts_S1024x1x3_S1024x8x3 : S1024x1x3.Broadcasts S1024x8x3
  reduces_S1024x8x3_S1024x8 : S1024x8x3.Reduces [2] S1024x8
  inb_S1024x8_S1024x8_0_0 : ∀ a, (![0, 0] : Fin 2 → Nat) a + S1024x8.size a ≤ S1024x8.size a
  h_S1024x8 : 0 < S1024x8.numel
  inb_S1024x8x16_S1024x8x16_0_0_0 : ∀ a, (![0, 0, 0] : Fin 3 → Nat) a + S1024x8x16.size a ≤ S1024x8x16.size a
  h_S1024x8x16 : 0 < S1024x8x16.numel
  shapeCasts_S1024x8x16_S1024x8x16 : S1024x8x16.ShapeCasts S1024x8x16
  slices_S1024x8x16_o0_0_0_S1024x1x16 : S1024x8x16.Slices ![0, 0, 0] S1024x1x16
  shapeCasts_S1024x1x16_S1024x16 : S1024x1x16.ShapeCasts S1024x16
  slices_S1024x8_o0_0_S1024x1 : S1024x8.Slices ![0, 0] S1024x1
  broadcasts_S1024x1_S1024x16 : S1024x1.Broadcasts S1024x16
  inb_S128x128_S16x128_0_0 : ∀ a, (![0, 0] : Fin 2 → Nat) a + S16x128.size a ≤ S128x128.size a
  h_S16x128 : 0 < S16x128.numel
  slices_S1024x8x16_o0_1_0_S1024x1x16 : S1024x8x16.Slices ![0, 1, 0] S1024x1x16
  slices_S1024x8_o0_1_S1024x1 : S1024x8.Slices ![0, 1] S1024x1
  inb_S128x128_S16x128_16_0 : ∀ a, (![16, 0] : Fin 2 → Nat) a + S16x128.size a ≤ S128x128.size a
  slices_S1024x8x16_o0_2_0_S1024x1x16 : S1024x8x16.Slices ![0, 2, 0] S1024x1x16
  slices_S1024x8_o0_2_S1024x1 : S1024x8.Slices ![0, 2] S1024x1
  inb_S128x128_S16x128_32_0 : ∀ a, (![32, 0] : Fin 2 → Nat) a + S16x128.size a ≤ S128x128.size a
  slices_S1024x8x16_o0_3_0_S1024x1x16 : S1024x8x16.Slices ![0, 3, 0] S1024x1x16
  slices_S1024x8_o0_3_S1024x1 : S1024x8.Slices ![0, 3] S1024x1
  inb_S128x128_S16x128_48_0 : ∀ a, (![48, 0] : Fin 2 → Nat) a + S16x128.size a ≤ S128x128.size a
  slices_S1024x8x16_o0_4_0_S1024x1x16 : S1024x8x16.Slices ![0, 4, 0] S1024x1x16
  slices_S1024x8_o0_4_S1024x1 : S1024x8.Slices ![0, 4] S1024x1
  inb_S128x128_S16x128_64_0 : ∀ a, (![64, 0] : Fin 2 → Nat) a + S16x128.size a ≤ S128x128.size a
  slices_S1024x8x16_o0_5_0_S1024x1x16 : S1024x8x16.Slices ![0, 5, 0] S1024x1x16
  slices_S1024x8_o0_5_S1024x1 : S1024x8.Slices ![0, 5] S1024x1
  inb_S128x128_S16x128_80_0 : ∀ a, (![80, 0] : Fin 2 → Nat) a + S16x128.size a ≤ S128x128.size a
  slices_S1024x8x16_o0_6_0_S1024x1x16 : S1024x8x16.Slices ![0, 6, 0] S1024x1x16
  slices_S1024x8_o0_6_S1024x1 : S1024x8.Slices ![0, 6] S1024x1
  inb_S128x128_S16x128_96_0 : ∀ a, (![96, 0] : Fin 2 → Nat) a + S16x128.size a ≤ S128x128.size a
  slices_S1024x8x16_o0_7_0_S1024x1x16 : S1024x8x16.Slices ![0, 7, 0] S1024x1x16
  slices_S1024x8_o0_7_S1024x1 : S1024x8.Slices ![0, 7] S1024x1
  inb_S128x128_S16x128_112_0 : ∀ a, (![112, 0] : Fin 2 → Nat) a + S16x128.size a ≤ S128x128.size a
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x8_S1024x8 : S1024x8.ShapeCasts S1024x8
  inb_S1024x8x128_S1024x8x128_0_0_0 : ∀ a, (![0, 0, 0] : Fin 3 → Nat) a + S1024x8x128.size a ≤ S1024x8x128.size a
  h_S1024x8x128 : 0 < S1024x8x128.numel
  shapeCasts_S1024x8x128_S1024x8x128 : S1024x8x128.ShapeCasts S1024x8x128
  slices_S1024x8x128_o0_0_0_S1024x1x128 : S1024x8x128.Slices ![0, 0, 0] S1024x1x128
  shapeCasts_S1024x1x128_S1024x128 : S1024x1x128.ShapeCasts S1024x128
  broadcasts_S1024x1_S1024x128 : S1024x1.Broadcasts S1024x128
  inb_S1024x128_S128x128_0_0 : ∀ a, (![0, 0] : Fin 2 → Nat) a + S128x128.size a ≤ S1024x128.size a
  h_S128x128 : 0 < S128x128.numel
  slices_S1024x8x128_o0_1_0_S1024x1x128 : S1024x8x128.Slices ![0, 1, 0] S1024x1x128
  inb_S1024x128_S128x128_128_0 : ∀ a, (![128, 0] : Fin 2 → Nat) a + S128x128.size a ≤ S1024x128.size a
  slices_S1024x8x128_o0_2_0_S1024x1x128 : S1024x8x128.Slices ![0, 2, 0] S1024x1x128
  inb_S1024x128_S128x128_256_0 : ∀ a, (![256, 0] : Fin 2 → Nat) a + S128x128.size a ≤ S1024x128.size a
  slices_S1024x8x128_o0_3_0_S1024x1x128 : S1024x8x128.Slices ![0, 3, 0] S1024x1x128
  inb_S1024x128_S128x128_384_0 : ∀ a, (![384, 0] : Fin 2 → Nat) a + S128x128.size a ≤ S1024x128.size a
  slices_S1024x8x128_o0_4_0_S1024x1x128 : S1024x8x128.Slices ![0, 4, 0] S1024x1x128
  inb_S1024x128_S128x128_512_0 : ∀ a, (![512, 0] : Fin 2 → Nat) a + S128x128.size a ≤ S1024x128.size a
  slices_S1024x8x128_o0_5_0_S1024x1x128 : S1024x8x128.Slices ![0, 5, 0] S1024x1x128
  inb_S1024x128_S128x128_640_0 : ∀ a, (![640, 0] : Fin 2 → Nat) a + S128x128.size a ≤ S1024x128.size a
  slices_S1024x8x128_o0_6_0_S1024x1x128 : S1024x8x128.Slices ![0, 6, 0] S1024x1x128
  inb_S1024x128_S128x128_768_0 : ∀ a, (![768, 0] : Fin 2 → Nat) a + S128x128.size a ≤ S1024x128.size a
  slices_S1024x8x128_o0_7_0_S1024x1x128 : S1024x8x128.Slices ![0, 7, 0] S1024x1x128
  inb_S1024x128_S128x128_896_0 : ∀ a, (![896, 0] : Fin 2 → Nat) a + S128x128.size a ≤ S1024x128.size a
  inb_S1024x16_S128x16_0_0 : ∀ a, (![0, 0] : Fin 2 → Nat) a + S128x16.size a ≤ S1024x16.size a
  h_S128x16 : 0 < S128x16.numel
  inb_S1024x16_S128x16_128_0 : ∀ a, (![128, 0] : Fin 2 → Nat) a + S128x16.size a ≤ S1024x16.size a
  inb_S1024x16_S128x16_256_0 : ∀ a, (![256, 0] : Fin 2 → Nat) a + S128x16.size a ≤ S1024x16.size a
  inb_S1024x16_S128x16_384_0 : ∀ a, (![384, 0] : Fin 2 → Nat) a + S128x16.size a ≤ S1024x16.size a
  inb_S1024x16_S128x16_512_0 : ∀ a, (![512, 0] : Fin 2 → Nat) a + S128x16.size a ≤ S1024x16.size a
  inb_S1024x16_S128x16_640_0 : ∀ a, (![640, 0] : Fin 2 → Nat) a + S128x16.size a ≤ S1024x16.size a
  inb_S1024x16_S128x16_768_0 : ∀ a, (![768, 0] : Fin 2 → Nat) a + S128x16.size a ≤ S1024x16.size a
  inb_S1024x16_S128x16_896_0 : ∀ a, (![896, 0] : Fin 2 → Nat) a + S128x16.size a ≤ S1024x16.size a
  inb_S1x16_S1x16_0_0 : ∀ a, (![0, 0] : Fin 2 → Nat) a + S1x16.size a ≤ S1x16.size a
  h_S1x16 : 0 < S1x16.numel
  broadcasts_S1x16_S1024x16 : S1x16.Broadcasts S1024x16
  inb_S1024x16_S1024x16_0_0 : ∀ a, (![0, 0] : Fin 2 → Nat) a + S1024x16.size a ≤ S1024x16.size a
  h_S1024x16 : 0 < S1024x16.numel
  gather_S262144x16_S262144x8x1_S262144x8x16_2_0_n_n_0_2_116_wf : GatherDims.WF S262144x16 S262144x8x1 S262144x8x16 [2] [0] [] [0] [] 2 ![1, 16]
  gather_S262144x3_S262144x8x1_S262144x8x3_2_0_n_n_0_2_13_wf : GatherDims.WF S262144x3 S262144x8x1 S262144x8x3 [2] [0] [] [0] [] 2 ![1, 3]
  dot_S1024x16_S16x128_S1024x128_1_0_0_1_n_n_wf : DotDims.WF S1024x16 S16x128 S1024x128 [1] [0] [0] [1] [] []
  gather_S262144x128_S262144x8x1_S262144x8x128_2_0_n_n_0_2_1128_wf : GatherDims.WF S262144x128 S262144x8x1 S262144x8x128 [2] [0] [] [0] [] 2 ![1, 128]
  dot_S1024x128_S128x128_S1024x128_1_0_0_1_n_n_wf : DotDims.WF S1024x128 S128x128 S1024x128 [1] [0] [0] [1] [] []
  dot_S1024x128_S128x16_S1024x16_1_0_0_1_n_n_wf : DotDims.WF S1024x128 S128x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x16.size a ≤ S262144x8x16.size a
  hwx0_0 : ∀ i : grid0.Coords, EltTy.bits .bf16 = 32 ∨ (Rect.block (s := S262144x8x16) S1024x8x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S262144x3.size a
  hwx0_1 : ∀ i : grid0.Coords, EltTy.bits .f32 = 32 ∨ (Rect.block (s := S262144x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8x3.size a ≤ S262144x8x3.size a
  hwx0_2 : ∀ i : grid0.Coords, EltTy.bits .f32 = 32 ∨ (Rect.block (s := S262144x8x3) S1024x8x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S262144x128.size a
  hwx0_5 : ∀ i : grid0.Coords, EltTy.bits .bf16 = 32 ∨ (Rect.block (s := S262144x128) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x8.size a ≤ S262144x8.size a
  hwx0_6 : ∀ i : grid0.Coords, EltTy.bits .f32 = 32 ∨ (Rect.block (s := S262144x8) S1024x8.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x8x128.size a ≤ S262144x8x128.size a
  hwx1_0 : ∀ i : grid1.Coords, EltTy.bits .bf16 = 32 ∨ (Rect.block (s := S262144x8x128) S1024x8x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x8.size a ≤ S262144x8.size a
  hwx1_1 : ∀ i : grid1.Coords, EltTy.bits .f32 = 32 ∨ (Rect.block (s := S262144x8) S1024x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S262144x128.size a
  hwx1_4 : ∀ i : grid1.Coords, EltTy.bits .bf16 = 32 ∨ (Rect.block (s := S262144x128) S1024x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x8x128.size a ≤ S262144x8x128.size a
  hwx2_0 : ∀ i : grid2.Coords, EltTy.bits .bf16 = 32 ∨ (Rect.block (s := S262144x8x128) S1024x8x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x8.size a ≤ S262144x8.size a
  hwx2_1 : ∀ i : grid2.Coords, EltTy.bits .f32 = 32 ∨ (Rect.block (s := S262144x8) S1024x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x16.size a ≤ S1024x16.size a
  hwx2_2 : ∀ i : grid2.Coords, EltTy.bits .f32 = 32 ∨ (Rect.block (s := S1024x16) S1024x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x16.size a ≤ S262144x16.size a
  hwx2_4 : ∀ i : grid2.Coords, EltTy.bits .f32 = 32 ∨ (Rect.block (s := S262144x16) S1024x16.size (cc2_transform_4 i) (hinb2_4 i)).WholeWords (EltTy.packing .f32)

variable [Facts₀]

def gather_S262144x16_S262144x8x1_S262144x8x16_2_0_n_n_0_2_116 : GatherDims S262144x16 S262144x8x1 S262144x8x16 where
  offsetDims := [2]
  collapsedSliceDims := [0]
  operandBatchingDims := []
  startIndicesBatchingDims := []
  startIndexMap := [0]
  indexVectorDim := 2
  sliceSizes := ![1, 16]
  wf := gather_S262144x16_S262144x8x1_S262144x8x16_2_0_n_n_0_2_116_wf
def gather_S262144x3_S262144x8x1_S262144x8x3_2_0_n_n_0_2_13 : GatherDims S262144x3 S262144x8x1 S262144x8x3 where
  offsetDims := [2]
  collapsedSliceDims := [0]
  operandBatchingDims := []
  startIndicesBatchingDims := []
  startIndexMap := [0]
  indexVectorDim := 2
  sliceSizes := ![1, 3]
  wf := gather_S262144x3_S262144x8x1_S262144x8x3_2_0_n_n_0_2_13_wf
def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def gather_S262144x128_S262144x8x1_S262144x8x128_2_0_n_n_0_2_1128 : GatherDims S262144x128 S262144x8x1 S262144x8x128 where
  offsetDims := [2]
  collapsedSliceDims := [0]
  operandBatchingDims := []
  startIndicesBatchingDims := []
  startIndexMap := [0]
  indexVectorDim := 2
  sliceSizes := ![1, 128]
  wf := gather_S262144x128_S262144x8x1_S262144x8x128_2_0_n_n_0_2_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x16_S1024x16_1_0_0_1_n_n : DotDims S1024x128 S128x16 S1024x16 where
  lhsContracting := [1]
  rhsContracting := [0]
  lhsNonContracting := [0]
  rhsNonContracting := [1]
  lhsBatch := []
  rhsBatch := []
  wf := dot_S1024x128_S128x16_S1024x16_1_0_0_1_n_n_wf

abbrev win0_0 : Pipeline.Window sig grid0 :=
  Pipeline.Window.ofSpec (Memref.whole main_v7) S1024x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x8x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1024x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S1024x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S1024x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S1024x8x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_1) S1024x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1024x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1024x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S262144x16 : Shape := ⟨2, ![262144, 16]⟩
abbrev S262144x3 : Shape := ⟨2, ![262144, 3]⟩
abbrev S262144x8 : Shape := ⟨2, ![262144, 8]⟩
abbrev S128x128 : Shape := ⟨2, ![128, 128]⟩
abbrev S1x128 : Shape := ⟨2, ![1, 128]⟩
abbrev S1024x128 : Shape := ⟨2, ![1024, 128]⟩
abbrev S1024x16 : Shape := ⟨2, ![1024, 16]⟩
abbrev S1x16 : Shape := ⟨2, ![1, 16]⟩
abbrev S_ : Shape := ⟨0, ![]⟩
abbrev S262144x8x1 : Shape := ⟨3, ![262144, 8, 1]⟩
abbrev S262144x8x16 : Shape := ⟨3, ![262144, 8, 16]⟩
abbrev S262144x8x3 : Shape := ⟨3, ![262144, 8, 3]⟩
abbrev S262144x1x3 : Shape := ⟨3, ![262144, 1, 3]⟩
abbrev S262144x128 : Shape := ⟨2, ![262144, 128]⟩
abbrev S262144x8x128 : Shape := ⟨3, ![262144, 8, 128]⟩
abbrev S262144x1024 : Shape := ⟨2, ![262144, 1024]⟩

abbrev nBuf : Space → Nat
  | .hbm => 130
  | .vmem => 0
  | .smem => 0
  | _ => 0

abbrev hbmTy0_0 (i : Nat) : BufTy := match i % 128 with
  | 0 => ⟨S262144x16, .f32⟩
  | 1 => ⟨S262144x3, .f32⟩
  | 2 => ⟨S262144x8, .i32⟩
  | 3 => ⟨S128x128, .f32⟩
  | 4 => ⟨S1x128, .f32⟩
  | 5 => ⟨S1024x128, .f32⟩
  | 6 => ⟨S1x128, .f32⟩
  | 7 => ⟨S1024x16, .f32⟩
  | 8 => ⟨S1x16, .f32⟩
  | 9 => ⟨S_, .i32⟩
  | 10 => ⟨S262144x8, .i32⟩
  | 11 => ⟨S262144x8, .i1⟩
  | 12 => ⟨S_, .i32⟩
  | 13 => ⟨S262144x8, .i32⟩
  | 14 => ⟨S262144x8, .i32⟩
  | 15 => ⟨S262144x8, .i32⟩
  | 16 => ⟨S262144x8x1, .i32⟩
  | 17 => ⟨S262144x8x16, .f32⟩
  | 18 => ⟨S_, .i32⟩
  | 19 => ⟨S262144x8, .i32⟩
  | 20 => ⟨S262144x8, .i1⟩
  | 21 => ⟨S_, .i32⟩
  | 22 => ⟨S262144x8, .i32⟩
  | 23 => ⟨S262144x8, .i32⟩
  | 24 => ⟨S262144x8, .i32⟩
  | 25 => ⟨S262144x8x1, .i32⟩
  | 26 => ⟨S262144x8x3, .f32⟩
  | 27 => ⟨S262144x1x3, .f32⟩
  | 28 => ⟨S262144x8x3, .f32⟩
  | 29 => ⟨S262144x8x3, .f32⟩
  | 30 => ⟨S262144x8x3, .f32⟩
  | 31 => ⟨S_, .f32⟩
  | 32 => ⟨S262144x8, .f32⟩
  | 33 => ⟨S262144x8x1, .f32⟩
  | 34 => ⟨S262144x8x1, .f32⟩
  | 35 => ⟨S_, .f32⟩
  | 36 => ⟨S262144x8x1, .f32⟩
  | 37 => ⟨S262144x8x1, .i1⟩
  | 38 => ⟨S_, .f32⟩
  | 39 => ⟨S262144x8x1, .f32⟩
  | 40 => ⟨S262144x8x1, .f32⟩
  | 41 => ⟨S262144x8x16, .f32⟩
  | 42 => ⟨S262144x8x16, .f32⟩
  | 43 => ⟨S262144x128, .f32⟩
  | 44 => ⟨S262144x128, .f32⟩
  | 45 => ⟨S262144x128, .f32⟩
  | 46 => ⟨S262144x128, .f32⟩
  | 47 => ⟨S_, .i32⟩
  | 48 => ⟨S262144x8, .i32⟩
  | 49 => ⟨S262144x8, .i1⟩
  | 50 => ⟨S_, .i32⟩
  | 51 => ⟨S262144x8, .i32⟩
  | 52 => ⟨S262144x8, .i32⟩
  | 53 => ⟨S262144x8, .i32⟩
  | 54 => ⟨S262144x8x1, .i32⟩
  | 55 => ⟨S262144x8x128, .f32⟩
  | 56 => ⟨S_, .i32⟩
  | 57 => ⟨S262144x8, .i32⟩
  | 58 => ⟨S262144x8, .i1⟩
  | 59 => ⟨S_, .i32⟩
  | 60 => ⟨S262144x8, .i32⟩
  | 61 => ⟨S262144x8, .i32⟩
  | 62 => ⟨S262144x8, .i32⟩
  | 63 => ⟨S262144x8x1, .i32⟩
  | 64 => ⟨S262144x8x3, .f32⟩
  | 65 => ⟨S262144x1x3, .f32⟩
  | 66 => ⟨S262144x8x3, .f32⟩
  | 67 => ⟨S262144x8x3, .f32⟩
  | 68 => ⟨S262144x8x3, .f32⟩
  | 69 => ⟨S_, .f32⟩
  | 70 => ⟨S262144x8, .f32⟩
  | 71 => ⟨S262144x8x1, .f32⟩
  | 72 => ⟨S262144x8x1, .f32⟩
  | 73 => ⟨S_, .f32⟩
  | 74 => ⟨S262144x8x1, .f32⟩
  | 75 => ⟨S262144x8x1, .i1⟩
  | 76 => ⟨S_, .f32⟩
  | 77 => ⟨S262144x8x1, .f32⟩
  | 78 => ⟨S262144x8x1, .f32⟩
  | 79 => ⟨S262144x8x128, .f32⟩
  | 80 => ⟨S262144x8x128, .f32⟩
  | 81 => ⟨S262144x1024, .f32⟩
  | 82 => ⟨S262144x128, .f32⟩
  | 83 => ⟨S262144x128, .f32⟩
  | 84 => ⟨S262144x128, .f32⟩
  | 85 => ⟨S_, .f32⟩
  | 86 => ⟨S262144x128, .f32⟩
  | 87 => ⟨S262144x128, .i1⟩
  | 88 => ⟨S_, .f32⟩
  | 89 => ⟨S262144x128, .f32⟩
  | 90 => ⟨S262144x128, .f32⟩
  | 91 => ⟨S262144x128, .f32⟩
  | 92 => ⟨S_, .i32⟩
  | 93 => ⟨S262144x8, .i32⟩
  | 94 => ⟨S262144x8, .i1⟩
  | 95 => ⟨S_, .i32⟩
  | 96 => ⟨S262144x8, .i32⟩
  | 97 => ⟨S262144x8, .i32⟩
  | 98 => ⟨S262144x8, .i32⟩
  | 99 => ⟨S262144x8x1, .i32⟩
  | 100 => ⟨S262144x8x128, .f32⟩
  | 101 => ⟨S_, .i32⟩
  | 102 => ⟨S262144x8, .i32⟩
  | 103 => ⟨S262144x8, .i1⟩
  | 104 => ⟨S_, .i32⟩
  | 105 => ⟨S262144x8, .i32⟩
  | 106 => ⟨S262144x8, .i32⟩
  | 107 => ⟨S262144x8, .i32⟩
  | 108 => ⟨S262144x8x1, .i32⟩
  | 109 => ⟨S262144x8x3, .f32⟩
  | 110 => ⟨S262144x1x3, .f32⟩
  | 111 => ⟨S262144x8x3, .f32⟩
  | 112 => ⟨S262144x8x3, .f32⟩
  | 113 => ⟨S262144x8x3, .f32⟩
  | 114 => ⟨S_, .f32⟩
  | 115 => ⟨S262144x8, .f32⟩
  | 116 => ⟨S262144x8x1, .f32⟩
  | 117 => ⟨S262144x8x1, .f32⟩
  | 118 => ⟨S_, .f32⟩
  | 119 => ⟨S262144x8x1, .f32⟩
  | 120 => ⟨S262144x8x1, .i1⟩
  | 121 => ⟨S_, .f32⟩
  | 122 => ⟨S262144x8x1, .f32⟩
  | 123 => ⟨S262144x8x1, .f32⟩
  | 124 => ⟨S262144x8x128, .f32⟩
  | 125 => ⟨S262144x8x128, .f32⟩
  | 126 => ⟨S262144x1024, .f32⟩
  | 127 => ⟨S262144x16, .f32⟩
  | _ => ⟨S262144x16, .f32⟩

abbrev hbmTy0_1 (i : Nat) : BufTy := match i % 128 with
  | 0 => ⟨S262144x16, .f32⟩
  | 1 => ⟨S262144x16, .f32⟩
  | _ => ⟨S262144x16, .f32⟩

abbrev hbmTy (i : Nat) : BufTy := match i / 128 with
  | 0 => hbmTy0_0 i
  | 1 => hbmTy0_1 i
  | _ => ⟨S262144x16, .f32⟩

abbrev bufTy : (tb : Table) → Fin (tcTables nBuf tb) → BufTy
  | .hbm, ⟨i, _⟩ => hbmTy i
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_call3_v0 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  bcast_S_S262144x8 : S_.BroadcastsInDim S262144x8 (![] : Fin 0 → Fin S262144x8.rank)
  bcast_S262144x8_S262144x8x1_0_1 : S262144x8.BroadcastsInDim S262144x8x1 (![0, 1] : Fin 2 → Fin S262144x8x1.rank)
  bcast_S262144x3_S262144x1x3_0_2 : S262144x3.BroadcastsInDim S262144x1x3 (![0, 2] : Fin 2 → Fin S262144x1x3.rank)
  bcast_S262144x1x3_S262144x8x3_0_1_2 : S262144x1x3.BroadcastsInDim S262144x8x3 (![0, 1, 2] : Fin 3 → Fin S262144x8x3.rank)
  reducesTo_S262144x8x3_S262144x8_d2 : S262144x8x3.ReducesTo [2] S262144x8
  h_S_ : 0 < S_.numel
  bcast_S_S262144x8x1 : S_.BroadcastsInDim S262144x8x1 (![] : Fin 0 → Fin S262144x8x1.rank)
  bcast_S262144x8x1_S262144x8x16_0_1_2 : S262144x8x1.BroadcastsInDim S262144x8x16 (![0, 1, 2] : Fin 3 → Fin S262144x8x16.rank)
  shapeCasts_S262144x8x16_S262144x128 : S262144x8x16.ShapeCasts S262144x128
  bcast_S1x128_S262144x128_0_1 : S1x128.BroadcastsInDim S262144x128 (![0, 1] : Fin 2 → Fin S262144x128.rank)
  bcast_S262144x8x1_S262144x8x128_0_1_2 : S262144x8x1.BroadcastsInDim S262144x8x128 (![0, 1, 2] : Fin 3 → Fin S262144x8x128.rank)
  shapeCasts_S262144x8x128_S262144x1024 : S262144x8x128.ShapeCasts S262144x1024
  bcast_S_S262144x128 : S_.BroadcastsInDim S262144x128 (![] : Fin 0 → Fin S262144x128.rank)
  bcast_S1x16_S262144x16_0_1 : S1x16.BroadcastsInDim S262144x16 (![0, 1] : Fin 2 → Fin S262144x16.rank)
  gather_S262144x16_S262144x8x1_S262144x8x16_2_0_n_n_0_2_116_wf : GatherDims.WF S262144x16 S262144x8x1 S262144x8x16 [2] [0] [] [0] [] 2 ![1, 16]
  gather_S262144x3_S262144x8x1_S262144x8x3_2_0_n_n_0_2_13_wf : GatherDims.WF S262144x3 S262144x8x1 S262144x8x3 [2] [0] [] [0] [] 2 ![1, 3]
  dot_S262144x128_S128x128_S262144x128_1_0_0_1_n_n_wf : DotDims.WF S262144x128 S128x128 S262144x128 [1] [0] [0] [1] [] []
  gather_S262144x128_S262144x8x1_S262144x8x128_2_0_n_n_0_2_1128_wf : GatherDims.WF S262144x128 S262144x8x1 S262144x8x128 [2] [0] [] [0] [] 2 ![1, 128]
  dot_S262144x1024_S1024x128_S262144x128_1_0_0_1_n_n_wf : DotDims.WF S262144x1024 S1024x128 S262144x128 [1] [0] [0] [1] [] []
  dot_S262144x1024_S1024x16_S262144x16_1_0_0_1_n_n_wf : DotDims.WF S262144x1024 S1024x16 S262144x16 [1] [0] [0] [1] [] []

variable [Facts₀]

def gather_S262144x16_S262144x8x1_S262144x8x16_2_0_n_n_0_2_116 : GatherDims S262144x16 S262144x8x1 S262144x8x16 where
  offsetDims := [2]
  collapsedSliceDims := [0]
  operandBatchingDims := []
  startIndicesBatchingDims := []
  startIndexMap := [0]
  indexVectorDim := 2
  sliceSizes := ![1, 16]
  wf := gather_S262144x16_S262144x8x1_S262144x8x16_2_0_n_n_0_2_116_wf
def gather_S262144x3_S262144x8x1_S262144x8x3_2_0_n_n_0_2_13 : GatherDims S262144x3 S262144x8x1 S262144x8x3 where
  offsetDims := [2]
  collapsedSliceDims := [0]
  operandBatchingDims := []
  startIndicesBatchingDims := []
  startIndexMap := [0]
  indexVectorDim := 2
  sliceSizes := ![1, 3]
  wf := gather_S262144x3_S262144x8x1_S262144x8x3_2_0_n_n_0_2_13_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def gather_S262144x128_S262144x8x1_S262144x8x128_2_0_n_n_0_2_1128 : GatherDims S262144x128 S262144x8x1 S262144x8x128 where
  offsetDims := [2]
  collapsedSliceDims := [0]
  operandBatchingDims := []
  startIndicesBatchingDims := []
  startIndexMap := [0]
  indexVectorDim := 2
  sliceSizes := ![1, 128]
  wf := gather_S262144x128_S262144x8x1_S262144x8x128_2_0_n_n_0_2_1128_wf
def dot_S262144x1024_S1024x128_S262144x128_1_0_0_1_n_n : DotDims S262144x1024 S1024x128 S262144x128 where
  lhsContracting := [1]
  rhsContracting := [0]
  lhsNonContracting := [0]
  rhsNonContracting := [1]
  lhsBatch := []
  rhsBatch := []
  wf := dot_S262144x1024_S1024x128_S262144x128_1_0_0_1_n_n_wf
def dot_S262144x1024_S1024x16_S262144x16_1_0_0_1_n_n : DotDims S262144x1024 S1024x16 S262144x16 where
  lhsContracting := [1]
  rhsContracting := [0]
  lhsNonContracting := [0]
  rhsNonContracting := [1]
  lhsBatch := []
  rhsBatch := []
  wf := dot_S262144x1024_S1024x16_S262144x16_1_0_0_1_n_n_wf

class Facts : Prop extends Facts₀ where

variable [Facts]
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibRbfHistogram.lean ====
/-
  A radial-basis-weighted histogram on the extended reals, generic in the number of rows.

  For a row `x : Fin K → EReal` and a centre `c : Fin K → EReal` the squared distance is spelled
  `(|x|² − 2·(x·c)) + |c|²` (three sums over the `K` coordinates, the literal `2` kept as its f32 word),
  the weight is `exp (−d / 2)`, and the histogram of a family of rows at coordinate `i` is the sum over
  the rows of `weight · xᵢ`.

  Two facts are proved. The exponent has two spellings, `(0 − d) · ½` and `(−d) / 2`, which agree on
  EVERY extended real (the infinities included): `0 − d = −d`, and a quotient by the real `2` is the product
  with the real `½`. And the histogram of `a · b` rows is the sum over `a` blocks of the histograms of
  `b` consecutive rows: a finite sum in a commutative monoid regrouped, no finiteness needed.
-/
import Idealize.ShloMosaic.PureOps.Ideal
import Idealize.ShloMosaic.PureOps.Ideal.Laws

noncomputable section

namespace Cert.RbfHistogram

open Idealize.ShloMosaic

/-! ## The two literal words -/

/-- The f32 word `0x40000000` denotes the real `2`. -/
theorem two_word : Ideal.ofBits .f32 0x40000000#32 = ((2 : ℝ) : EReal) := by
  simp [Ideal.ofBits, Ideal.ieee, -EReal.coe_mul]; norm_num

/-- The f32 word `0x3F000000` denotes the real `1/2`. -/
theorem half_word : Ideal.ofBits .f32 0x3F000000#32 = ((1 / 2 : ℝ) : EReal) := by
  simp [Ideal.ofBits, Ideal.ieee, -EReal.coe_mul]; norm_num

/-- `(0 − e) · ½ = (−e) / 2` on every extended real. -/
theorem exponent_eq (e : EReal) :
    (Ideal.ofBits .f32 0x00000000#32 - e) * Ideal.ofBits .f32 0x3F000000#32
      = Ideal.div (-e) (Ideal.ofBits .f32 0x40000000#32) := by
  rw [Ideal.ofBits_zero_f32, zero_sub, two_word, half_word, Ideal.div_coe (by norm_num : (2 : ℝ) ≠ 0)]

/-! ## Distance, weight, histogram -/

variable {K : ℕ}

/-- `|x|²`. -/
def rowSq (x : Fin K → EReal) : EReal := ∑ k, x k * x k

/-- `x · c`. -/
def rowDot (x c : Fin K → EReal) : EReal := ∑ k, x k * c k

/-- The squared distance, in the association both programs use: `(|x|² − 2·(x·c)) + |c|²`. -/
def dist (x c : Fin K → EReal) : EReal := (rowSq x - Ideal.ofBits .f32 0x40000000#32 * rowDot x c) + rowSq c

/-- The weight `exp (−d / 2)`. -/
def weight (x c : Fin K → EReal) : EReal :=
  Ideal.exp (Ideal.div (-(dist x c)) (Ideal.ofBits .f32 0x40000000#32))

/-- The other spelling of the weight: `exp ((0 − d) · ½)`. -/
theorem weight_half (x c : Fin K → EReal) :
    Ideal.exp ((Ideal.ofBits .f32 0x00000000#32 - dist x c) * Ideal.ofBits .f32 0x3F000000#32) = weight x c := by
  rw [exponent_eq]; rfl

/-- The histogram of the rows `x` against the centre `c`, at coordinate `i`. -/
def hist {N : ℕ} (x : Fin N → Fin K → EReal) (c : Fin K → EReal) (i : Fin K) : EReal :=
  ∑ n, weight (x n) c * x n i

/-! ## Sums over blocks of consecutive indices -/

/-- Index `q` of block `p` among `a` blocks of `b` consecutive indices. -/
def blockIdx {a b : ℕ} (p : Fin a) (q : Fin b) : Fin (a * b) :=
  ⟨p.val * b + q.val, by
    have hp := p.isLt; have hq := q.isLt
    calc p.val * b + q.val < p.val * b + b := by omega
      _ = (p.val + 1) * b := by ring
      _ ≤ a * b := Nat.mul_le_mul_right b hp⟩

theorem blockIdx_val {a b : ℕ} (p : Fin a) (q : Fin b) : (blockIdx p q).val = p.val * b + q.val := rfl

/-- A sum over `a · b` indices is the sum over the `a` blocks of the sums over each block's `b` indices. -/
theorem sum_blocks {M : Type*} [AddCommMonoid M] (a b : ℕ) (f : Fin (a * b) → M) :
    ∑ r, f r = ∑ p : Fin a, ∑ q : Fin b, f (blockIdx p q) := by
  rw [← (finProdFinEquiv (m := a) (n := b)).sum_comp, Fintype.sum_prod_type]
  refine Finset.sum_congr rfl fun p _ => Finset.sum_congr rfl fun q _ => congrArg f (Fin.ext ?_)
  rw [finProdFinEquiv_apply_val, blockIdx_val]
  ring

/-- The histogram of `a · b` rows is the sum of the histograms of the `a` blocks of `b` rows. -/
theorem hist_blocks (a b : ℕ) (x : Fin (a * b) → Fin K → EReal) (c : Fin K → EReal) (i : Fin K) :
    hist x c i = ∑ p : Fin a, hist (fun q => x (blockIdx p q)) c i := by
  unfold hist
  exact sum_blocks a b _

end Cert.RbfHistogram

end
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.LibNeighMsg.lean ====
/-
  A layer that mixes the messages of each node's K neighbours, on the extended reals, generic in the sizes.

  For a node p, neighbour k and feature f the message M(p,k,f) is weighted by the neighbour's distance to the node and
  the weighted messages of all neighbours, laid side by side (column k·D+f), are multiplied by a (K·D)×H matrix W;
  a bias row is added, and in a hidden layer a leaky rectifier follows.

  Two spellings are stated. In the product form the message is MULTIPLIED by a factor s(p,k) and the sum runs over
  the neighbours and, inside, over the features. In the quotient form the message is DIVIDED by a distance d(p,k)
  and the sum runs over the K·D flattened columns c, read back as neighbour c / D and feature c % D. They are one
  function as soon as multiplying by s(p,k) is dividing by d(p,k) on every extended real: regrouping a finite sum
  needs no finiteness.

  The factor and the distance both come from the squared distance q = Σ_t (P(p,t) − S(p,k,t))²: the factor is 2 where
  q = 0 and 1/√q elsewhere, the distance is 1/2 where √q = 0 and √q elsewhere. For real positions q is a real ≥ 0,
  √q = 0 exactly when q = 0, and a quotient by a nonzero real is the product with its reciprocal on every extended
  real, so the two agree.
-/
import proofs.«154351_j70523363000700_2_alg».proof.Proof.LibDense
import proofs.«154351_j70523363000700_2_alg».proof.Proof.LibRbfHistogram
import proofs.«154351_j70523363000700_2_alg».proof.Proof.LibLiterals

noncomputable section

open scoped BigOperators

namespace Cert.NeighMsg

open Idealize.ShloMosaic Idealize.ShloMosaic.ValueIdx Cert.Dense

variable {A K D H : ℕ}

/-- A rank-three array of extended reals. -/
abbrev Arr3 (a b c : ℕ) : Type := (⟨3, ![a, b, c]⟩ : Shape).Idx → EReal

/-! ## The two spellings of the weighted message sum -/

/-- Product form: Σ_k Σ_f (M(p,k,f) · s(p,k)) · W(k·D+f, j). -/
def accMul (M : Arr3 A K D) (s : Mat A K) (W : Mat (K * D) H) : Mat A H := fun i =>
  ∑ k : Fin K, ∑ f : Fin D, (M (ix3 (i 0) k f) * s (ix2 (i 0) k)) * W (ix2 (finProdFinEquiv (k, f)) (i 1))

/-- Quotient form: Σ_c (M(p, c / D, c % D) / d(p, c / D, 0)) · W(c, j). -/
def accDiv (M : Arr3 A K D) (d : Arr3 A K 1) (W : Mat (K * D) H) : Mat A H := fun i =>
  ∑ c : Fin (K * D), Ideal.div (M (ix3 (i 0) c.divNat c.modNat)) (d (ix3 (i 0) c.divNat (0 : Fin 1))) * W (ix2 c (i 1))

/-- The two are one function when multiplying by the factor is dividing by the distance. -/
theorem accMul_eq_accDiv (M : Arr3 A K D) (s : Mat A K) (d : Arr3 A K 1) (W : Mat (K * D) H)
    (h : ∀ (p : Fin A) (k : Fin K) (x : EReal), x * s (ix2 p k) = Ideal.div x (d (ix3 p k (0 : Fin 1)))) :
    accMul M s W = accDiv M d W := by
  funext i
  unfold accMul accDiv
  rw [← Equiv.sum_comp finProdFinEquiv, Fintype.sum_prod_type]
  refine Finset.sum_congr rfl fun k _ => Finset.sum_congr rfl fun f _ => ?_
  have e : finProdFinEquiv.symm (finProdFinEquiv (k, f)) = (k, f) := finProdFinEquiv.symm_apply_apply (k, f)
  have e1 : (finProdFinEquiv (k, f) : Fin (K * D)).divNat = k := congrArg Prod.fst e
  have e2 : (finProdFinEquiv (k, f) : Fin (K * D)).modNat = f := congrArg Prod.snd e
  rw [e1, e2]
  exact congrArg (· * W (ix2 (finProdFinEquiv (k, f)) (i 1))) (h (i 0) k (M (ix3 (i 0) k f)))

/-- A bias stored as a one-row matrix, added to every row. -/
def addBias (X : Mat A H) (b : Mat 1 H) : Mat A H := fun i => X i + b (ix2 (0 : Fin 1) (i 1))

/-- The layer in product form. -/
def layerMul (M : Arr3 A K D) (s : Mat A K) (W : Mat (K * D) H) (b : Mat 1 H) : Mat A H := addBias (accMul M s W) b

/-- The layer in quotient form. -/
def layerDiv (M : Arr3 A K D) (d : Arr3 A K 1) (W : Mat (K * D) H) (b : Mat 1 H) : Mat A H := addBias (accDiv M d W) b

theorem layerMul_eq_layerDiv (M : Arr3 A K D) (s : Mat A K) (d : Arr3 A K 1) (W : Mat (K * D) H) (b : Mat 1 H)
    (h : ∀ (p : Fin A) (k : Fin K) (x : EReal), x * s (ix2 p k) = Ideal.div x (d (ix3 p k (0 : Fin 1)))) :
    layerMul M s W b = layerDiv M d W b := by
  unfold layerMul layerDiv; rw [accMul_eq_accDiv M s d W h]

/-- The leaky rectifier with slope word 0x3C23D70A, on one extended real: x where x ≥ 0, slope · x elsewhere. -/
def lreluE (x : EReal) : EReal :=
  Scalar.select (Ideal.cmp .oge x (Ideal.ofBits .f32 0x00000000#32)) x (Ideal.ofBits .f32 0x3C23D70A#32 * x)

/-- The leaky rectifier entry by entry. -/
def lrelu (X : Mat A H) : Mat A H := fun i => lreluE (X i)

/-! ## Rows: a block of rows computes the rows of the whole -/

/-- Entry (p, j) of the product form on a block is entry (r, j) on the whole arrays when row p of the block's
    messages and factors is row r of the whole arrays'. -/
theorem accMul_row {A' : ℕ} (M : Arr3 A K D) (s : Mat A K) (M' : Arr3 A' K D) (s' : Mat A' K) (W : Mat (K * D) H)
    (p : Fin A) (r : Fin A') (hM : ∀ k f, M (ix3 p k f) = M' (ix3 r k f)) (hs : ∀ k, s (ix2 p k) = s' (ix2 r k)) (j : Fin H) :
    accMul M s W (ix2 p j) = accMul M' s' W (ix2 r j) := by
  show ∑ k : Fin K, ∑ f : Fin D, (M (ix3 p k f) * s (ix2 p k)) * W (ix2 (finProdFinEquiv (k, f)) j)
      = ∑ k : Fin K, ∑ f : Fin D, (M' (ix3 r k f) * s' (ix2 r k)) * W (ix2 (finProdFinEquiv (k, f)) j)
  exact Finset.sum_congr rfl fun k _ => Finset.sum_congr rfl fun f _ => by rw [hM k f, hs k]

theorem layerMul_row {A' : ℕ} (M : Arr3 A K D) (s : Mat A K) (M' : Arr3 A' K D) (s' : Mat A' K) (W : Mat (K * D) H) (b : Mat 1 H)
    (p : Fin A) (r : Fin A') (hM : ∀ k f, M (ix3 p k f) = M' (ix3 r k f)) (hs : ∀ k, s (ix2 p k) = s' (ix2 r k)) (j : Fin H) :
    layerMul M s W b (ix2 p j) = layerMul M' s' W b (ix2 r j) := by
  show accMul M s W (ix2 p j) + b (ix2 (0 : Fin 1) j) = accMul M' s' W (ix2 r j) + b (ix2 (0 : Fin 1) j)
  rw [accMul_row M s M' s' W p r hM hs j]

/-! ## The factor and the distance -/

/-- The squared distance from node p to its neighbour k: Σ_t (P(p,t) − S(p,k,t))². -/
def sqd (P : Mat A 3) (S : Arr3 A K 3) : Mat A K := fun i =>
  ∑ t : Fin 3, (P (ix2 (i 0) t) - S (ix3 (i 0) (i 1) t)) * (P (ix2 (i 0) t) - S (ix3 (i 0) (i 1) t))

/-- The factor: 2 where the squared distance is 0, 1/√q elsewhere. -/
def invd (P : Mat A 3) (S : Arr3 A K 3) : Mat A K := fun i =>
  Scalar.select (Ideal.cmp .oeq (sqd P S i) (Ideal.ofBits .f32 0x00000000#32)) (Ideal.ofBits .f32 0x40000000#32)
    (Ideal.div (Ideal.ofBits .f32 0x3F800000#32) (Ideal.sqrt (sqd P S i)))

/-- The distance, kept with a trailing unit axis: 1/2 where √q is 0, √q elsewhere. -/
def dist (P : Mat A 3) (S : Arr3 A K 3) : Arr3 A K 1 := fun i =>
  Scalar.select (Ideal.cmp .oeq (Ideal.sqrt (sqd P S (ix2 (i 0) (i 1)))) (Ideal.ofBits .f32 0x00000000#32)) (Ideal.ofBits .f32 0x3F000000#32)
    (Ideal.sqrt (sqd P S (ix2 (i 0) (i 1))))

/-- Rows of the factor. -/
theorem invd_row {A' : ℕ} (P : Mat A 3) (S : Arr3 A K 3) (P' : Mat A' 3) (S' : Arr3 A' K 3) (p : Fin A) (r : Fin A')
    (hP : ∀ t, P (ix2 p t) = P' (ix2 r t)) (hS : ∀ k t, S (ix3 p k t) = S' (ix3 r k t)) (k : Fin K) :
    invd P S (ix2 p k) = invd P' S' (ix2 r k) := by
  have hq : sqd P S (ix2 p k) = sqd P' S' (ix2 r k) := by
    show ∑ t : Fin 3, (P (ix2 p t) - S (ix3 p k t)) * (P (ix2 p t) - S (ix3 p k t))
      = ∑ t : Fin 3, (P' (ix2 r t) - S' (ix3 r k t)) * (P' (ix2 r t) - S' (ix3 r k t))
    exact Finset.sum_congr rfl fun t _ => by rw [hP t, hS k t]
  unfold invd; rw [hq]

/-- For real positions, multiplying by the factor is dividing by the distance, on every extended real. -/
theorem mul_invd_eq_div_dist (P : Mat A 3) (S : Arr3 A K 3)
    (hP : ∀ i, ∃ r : ℝ, P i = (r : EReal)) (hS : ∀ i, ∃ r : ℝ, S i = (r : EReal))
    (p : Fin A) (k : Fin K) (x : EReal) :
    x * invd P S (ix2 p k) = Ideal.div x (dist P S (ix3 p k (0 : Fin 1))) := by
  choose a ha using hP
  choose c hc using hS
  have hq : sqd P S (ix2 p k) = ((∑ t : Fin 3, (a (ix2 p t) - c (ix3 p k t)) * (a (ix2 p t) - c (ix3 p k t)) : ℝ) : EReal) := by
    show ∑ t : Fin 3, (P (ix2 p t) - S (ix3 p k t)) * (P (ix2 p t) - S (ix3 p k t)) = _
    rw [Fin.sum_univ_three, Fin.sum_univ_three]
    simp only [ha, hc]
    push_cast
    rfl
  have hnn : 0 ≤ ∑ t : Fin 3, (a (ix2 p t) - c (ix3 p k t)) * (a (ix2 p t) - c (ix3 p k t)) :=
    Finset.sum_nonneg fun t _ => mul_self_nonneg _
  unfold invd dist
  show x * Scalar.select (Ideal.cmp .oeq (sqd P S (ix2 p k)) (Ideal.ofBits .f32 0x00000000#32)) (Ideal.ofBits .f32 0x40000000#32)
        (Ideal.div (Ideal.ofBits .f32 0x3F800000#32) (Ideal.sqrt (sqd P S (ix2 p k))))
      = Ideal.div x (Scalar.select (Ideal.cmp .oeq (Ideal.sqrt (sqd P S (ix2 p k))) (Ideal.ofBits .f32 0x00000000#32))
        (Ideal.ofBits .f32 0x3F000000#32) (Ideal.sqrt (sqd P S (ix2 p k))))
  rw [hq]
  generalize (∑ t : Fin 3, (a (ix2 p t) - c (ix3 p k t)) * (a (ix2 p t) - c (ix3 p k t))) = q at hnn
  rw [Ideal.sqrt_coe, if_neg (not_lt.mpr hnn), Ideal.ofBits_zero_f32, Cert.RbfHistogram.two_word, Cert.RbfHistogram.half_word,
    Cert.LibLiterals.ofBits_f32_one]
  by_cases h0 : q = 0
  · subst h0
    have e1 : Ideal.cmp .oeq ((0 : ℝ) : EReal) 0 = 1#1 := by simp [Ideal.cmp]
    have e2 : Ideal.cmp .oeq ((Real.sqrt 0 : ℝ) : EReal) 0 = 1#1 := by simp [Ideal.cmp]
    rw [e1, e2, select_one, select_one, Ideal.div_coe (by norm_num : (1 / 2 : ℝ) ≠ 0)]
    norm_num
  · have hpos : 0 < q := lt_of_le_of_ne hnn (Ne.symm h0)
    have hs : Real.sqrt q ≠ 0 := (Real.sqrt_pos.mpr hpos).ne'
    have e1 : Ideal.cmp .oeq ((q : ℝ) : EReal) 0 = 0#1 := by
      simp [Ideal.cmp, h0]
    have e2 : Ideal.cmp .oeq ((Real.sqrt q : ℝ) : EReal) 0 = 0#1 := by
      simp [Ideal.cmp, hs]
    rw [e1, e2, select_zero, select_zero, Ideal.div_coe hs, Ideal.div_coe hs, one_mul]

end Cert.NeighMsg

end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.LibNeighTerm.lean ====
/-
  One neighbour's contribution to a layer that mixes the messages of each node's neighbours, read at an entry.

  The messages M(p,k,f) of neighbour k are cut out of the rank-three array and kept as a matrix [A, D]; the factor
  column s(p,k) is cut out of the matrix [A, K] and spread over the D features; their entrywise product is
  multiplied by a D×H slab of weights into a zero accumulator. At entry (p, q) this is
  Σ_f (M(p,k,f) · s(p,k)) · W(f,q). Generic in the sizes, in the neighbour and in the slab.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws
import proofs.«154351_j70523363000700_2_alg».proof.Proof.LibDense
import proofs.«154351_j70523363000700_2_alg».proof.Proof.LibColumnLayout
import proofs.«154351_j70523363000700_2_alg».proof.Proof.LibNeighMsg

noncomputable section

open scoped BigOperators

namespace Cert.NeighTerm

open Idealize.ShloMosaic Idealize.ShloMosaic.ValueIdx Cert.Dense Cert.NeighMsg

variable {A K D H : ℕ} {α : Type}

/-- Neighbour k's messages cut out of [A, K, D] and kept as [A, D]: entry (p, f) is M(p, k, f). -/
theorem msgSlice_apply (k : ℕ) (k' : Fin K) (hk : k'.val = k) (M : (⟨3, ![A, K, D]⟩ : Shape).Idx → α)
    (h1 : (⟨3, ![A, K, D]⟩ : Shape).Slices ![0, k, 0] ⟨3, ![A, 1, D]⟩)
    (h2 : (⟨3, ![A, 1, D]⟩ : Shape).ShapeCasts ⟨2, ![A, D]⟩) (p : Fin A) (f : Fin D) :
    shapeCast ⟨2, ![A, D]⟩ (extractStridedSlice ⟨3, ![A, 1, D]⟩ ![0, k, 0] M h1) h2 (ix2 p f) = M (ix3 p k' f) := by
  refine (shapeCast_apply _ h2 (ix2 p f) (ix3 p (0 : Fin 1) f) ?_).trans ?_
  · rw [Shape.rowMajor_val_three, Shape.rowMajor_val_two]
    show (p.val * 1 + 0) * D + f.val = p.val * D + f.val
    rw [Nat.mul_one, Nat.add_zero]
  · refine extractStridedSlice_apply _ M h1 _ (ix3 p k' f) fun a => ?_
    match a with
    | ⟨0, _⟩ => show p.val = 0 + p.val; omega
    | ⟨1, _⟩ => show k'.val = k + 0; omega
    | ⟨2, _⟩ => show f.val = 0 + f.val; omega

/-- Neighbour k's factor column cut out of [A, K] and spread over D columns: entry (p, f) is s(p, k). -/
theorem colSlice_apply (k : ℕ) (k' : Fin K) (hk : k'.val = k) (s : (⟨2, ![A, K]⟩ : Shape).Idx → α)
    (h4 : (⟨2, ![A, K]⟩ : Shape).Slices ![0, k] ⟨2, ![A, 1]⟩)
    (h5 : (⟨2, ![A, 1]⟩ : Shape).Broadcasts ⟨2, ![A, D]⟩) (p : Fin A) (f : Fin D) :
    broadcastTo ⟨2, ![A, D]⟩ (extractStridedSlice ⟨2, ![A, 1]⟩ ![0, k] s h4) h5 (ix2 p f) = s (ix2 p k') := by
  refine (broadcastTo_apply _ h5 (ix2 p f) (ix2 p (0 : Fin 1)) fun ax => ?_).trans ?_
  · match ax with
    | ⟨0, _⟩ =>
      show p.val = if A = 1 then 0 else p.val
      split
      · have := p.isLt; omega
      · rfl
    | ⟨1, _⟩ => rfl
  · refine extractStridedSlice_apply _ s h4 _ (ix2 p k') fun a => ?_
    match a with
    | ⟨0, _⟩ => show p.val = 0 + p.val; omega
    | ⟨1, _⟩ => show k'.val = k + 0; omega

/-- One neighbour's term: the product of the weighted messages [A, D] with a D×H slab of weights into a zero
    accumulator is, at entry (p, q), Σ_f (M(p,k,f) · s(p,k)) · W(f,q). The changes of float format are the identity
    on the extended reals. -/
theorem term_eq (k : ℕ) (k' : Fin K) (hk : k'.val = k)
    (M : FVec Ideal ⟨3, ![A, K, D]⟩ .bf16) (s : FVec Ideal ⟨2, ![A, K]⟩ .f32) (Wk : FVec Ideal ⟨2, ![D, H]⟩ .f32)
    (h1 : (⟨3, ![A, K, D]⟩ : Shape).Slices ![0, k, 0] ⟨3, ![A, 1, D]⟩)
    (h2 : (⟨3, ![A, 1, D]⟩ : Shape).ShapeCasts ⟨2, ![A, D]⟩)
    (h3 : FTy.bits .bf16 < FTy.bits .f32)
    (h4 : (⟨2, ![A, K]⟩ : Shape).Slices ![0, k] ⟨2, ![A, 1]⟩)
    (h5 : (⟨2, ![A, 1]⟩ : Shape).Broadcasts ⟨2, ![A, D]⟩) :
    matmul (DotDims.plain A D H) none
        (truncf .bf16 (mulf (extf .f32 (shapeCast ⟨2, ![A, D]⟩ (extractStridedSlice ⟨3, ![A, 1, D]⟩ ![0, k, 0] M h1) h2) h3)
          (broadcastTo ⟨2, ![A, D]⟩ (extractStridedSlice ⟨2, ![A, 1]⟩ ![0, k] s h4) h5)) h3)
        (truncf .bf16 Wk h3) (constant (F := Ideal) ⟨2, ![A, H]⟩ .f32 0x00000000#32)
      = fun i => ∑ f : Fin D, (M (ix3 (i 0) k' f) * s (ix2 (i 0) k')) * Wk (ix2 f (i 1)) := by
  rw [Cert.Dense.matmul_plain_zero]
  funext i
  obtain ⟨p, q, rfl⟩ : ∃ (p : Fin A) (q : Fin H), i = ix2 p q := ⟨i 0, i 1, eq_ix2 i⟩
  show ∑ f : Fin D, (shapeCast ⟨2, ![A, D]⟩ (extractStridedSlice ⟨3, ![A, 1, D]⟩ ![0, k, 0] M h1) h2 (ix2 p f)
      * broadcastTo ⟨2, ![A, D]⟩ (extractStridedSlice ⟨2, ![A, 1]⟩ ![0, k] s h4) h5 (ix2 p f)) * Wk (ix2 f q)
    = ∑ f : Fin D, (M (ix3 p k' f) * s (ix2 p k')) * Wk (ix2 f q)
  refine Finset.sum_congr rfl fun f _ => ?_
  rw [msgSlice_apply k k' hk M h1 h2 p f, colSlice_apply k k' hk s h4 h5 p f]

/-! ## The layer as the sum of its neighbours' terms -/

/-- Neighbour k's term with its own D×H slab of weights: entry (p, q) is Σ_f (M(p,k,f) · s(p,k)) · Wk(f,q). -/
def term (M : Arr3 A K D) (s : Mat A K) (k : Fin K) (Wk : Mat D H) : Mat A H := fun i =>
  ∑ f : Fin D, (M (ix3 (i 0) k f) * s (ix2 (i 0) k)) * Wk (ix2 f (i 1))

/-- One neighbour's matrix product into a zero accumulator is that neighbour's term. -/
theorem matmul_eq_term (k : ℕ) (k' : Fin K) (hk : k'.val = k)
    (M : FVec Ideal ⟨3, ![A, K, D]⟩ .bf16) (s : FVec Ideal ⟨2, ![A, K]⟩ .f32) (Wk : FVec Ideal ⟨2, ![D, H]⟩ .f32)
    (h1 : (⟨3, ![A, K, D]⟩ : Shape).Slices ![0, k, 0] ⟨3, ![A, 1, D]⟩)
    (h2 : (⟨3, ![A, 1, D]⟩ : Shape).ShapeCasts ⟨2, ![A, D]⟩)
    (h3 : FTy.bits .bf16 < FTy.bits .f32)
    (h4 : (⟨2, ![A, K]⟩ : Shape).Slices ![0, k] ⟨2, ![A, 1]⟩)
    (h5 : (⟨2, ![A, 1]⟩ : Shape).Broadcasts ⟨2, ![A, D]⟩) :
    matmul (DotDims.plain A D H) none
        (truncf .bf16 (mulf (extf .f32 (shapeCast ⟨2, ![A, D]⟩ (extractStridedSlice ⟨3, ![A, 1, D]⟩ ![0, k, 0] M h1) h2) h3)
          (broadcastTo ⟨2, ![A, D]⟩ (extractStridedSlice ⟨2, ![A, 1]⟩ ![0, k] s h4) h5)) h3)
        (truncf .bf16 Wk h3) (constant (F := Ideal) ⟨2, ![A, H]⟩ .f32 0x00000000#32)
      = term (M : Arr3 A K D) (s : Mat A K) k' (Wk : Mat D H) :=
  term_eq k k' hk M s Wk h1 h2 h3 h4 h5

/-- When the slab is rows k·D … k·D+D−1 of the whole weight matrix, the term is neighbour k's part of the layer's sum. -/
theorem term_slab (M : Arr3 A K D) (s : Mat A K) (k : Fin K) (Wk : Mat D H) (W : Mat (K * D) H)
    (h : ∀ (f : Fin D) (q : Fin H), Wk (ix2 f q) = W (ix2 (finProdFinEquiv (k, f)) q)) (p : Fin A) (q : Fin H) :
    term M s k Wk (ix2 p q) = ∑ f : Fin D, (M (ix3 p k f) * s (ix2 p k)) * W (ix2 (finProdFinEquiv (k, f)) q) := by
  show ∑ f : Fin D, (M (ix3 p k f) * s (ix2 p k)) * Wk (ix2 f q) = _
  exact Finset.sum_congr rfl fun f _ => by rw [h f q]

/-- Rows k·D … k·D+D−1 of a (K·D)×H matrix read as a D×H slab: entry (f, q) is the matrix at row k·D+f. -/
theorem slab_apply {Val : EltTy → Type} {e : EltTy} (W : (⟨2, ![K * D, H]⟩ : Shape).Idx → Val e) (k : Fin K) (off : ℕ)
    (hoff : off = k.val * D)
    (inb : ∀ a, (![off, 0] : Fin 2 → ℕ) a + (![D, H] : Fin 2 → ℕ) a ≤ (⟨2, ![K * D, H]⟩ : Shape).size a)
    (f : Fin D) (q : Fin H) :
    View.ld W (Rect.unit (s := ⟨2, ![K * D, H]⟩) ![off, 0] ![D, H] inb) (ix2 f q) = W (ix2 (finProdFinEquiv (k, f)) q) := by
  refine congrArg W (funext fun a => Fin.ext ?_)
  match a with
  | ⟨0, _⟩ =>
    show off + 1 * f.val = (finProdFinEquiv (k, f) : Fin (K * D)).val
    rw [finProdFinEquiv_apply_val]
    show off + 1 * f.val = f.val + D * k.val
    rw [hoff, Nat.mul_comm D]; omega
  | ⟨1, _⟩ => show 0 + 1 * q.val = q.val; omega

/-- With eight neighbours the layer, at entry (p, q), is zero plus the eight terms added one after the other, plus
    the bias of column q. -/
theorem layerMul_eight (M : Arr3 A 8 D) (s : Mat A 8) (W : Mat (8 * D) H) (b : Mat 1 H)
    (W0 W1 W2 W3 W4 W5 W6 W7 : Mat D H)
    (h0 : ∀ (f : Fin D) (q : Fin H), W0 (ix2 f q) = W (ix2 (finProdFinEquiv ((0 : Fin 8), f)) q))
    (h1 : ∀ (f : Fin D) (q : Fin H), W1 (ix2 f q) = W (ix2 (finProdFinEquiv ((1 : Fin 8), f)) q))
    (h2 : ∀ (f : Fin D) (q : Fin H), W2 (ix2 f q) = W (ix2 (finProdFinEquiv ((2 : Fin 8), f)) q))
    (h3 : ∀ (f : Fin D) (q : Fin H), W3 (ix2 f q) = W (ix2 (finProdFinEquiv ((3 : Fin 8), f)) q))
    (h4 : ∀ (f : Fin D) (q : Fin H), W4 (ix2 f q) = W (ix2 (finProdFinEquiv ((4 : Fin 8), f)) q))
    (h5 : ∀ (f : Fin D) (q : Fin H), W5 (ix2 f q) = W (ix2 (finProdFinEquiv ((5 : Fin 8), f)) q))
    (h6 : ∀ (f : Fin D) (q : Fin H), W6 (ix2 f q) = W (ix2 (finProdFinEquiv ((6 : Fin 8), f)) q))
    (h7 : ∀ (f : Fin D) (q : Fin H), W7 (ix2 f q) = W (ix2 (finProdFinEquiv ((7 : Fin 8), f)) q))
    (p : Fin A) (q : Fin H) :
    ((((((((0 + term M s 0 W0 (ix2 p q)) + term M s 1 W1 (ix2 p q)) + term M s 2 W2 (ix2 p q)) + term M s 3 W3 (ix2 p q))
        + term M s 4 W4 (ix2 p q)) + term M s 5 W5 (ix2 p q)) + term M s 6 W6 (ix2 p q)) + term M s 7 W7 (ix2 p q))
        + b (ix2 (0 : Fin 1) q)
      = layerMul M s W b (ix2 p q) := by
  rw [term_slab M s 0 W0 W h0, term_slab M s 1 W1 W h1, term_slab M s 2 W2 W h2, term_slab M s 3 W3 W h3,
    term_slab M s 4 W4 W h4, term_slab M s 5 W5 W h5, term_slab M s 6 W6 W h6, term_slab M s 7 W7 W h7, zero_add]
  show _ = (∑ k : Fin 8, ∑ f : Fin D, (M (ix3 p k f) * s (ix2 p k)) * W (ix2 (finProdFinEquiv (k, f)) q)) + b (ix2 (0 : Fin 1) q)
  rw [Fin.sum_univ_eight]

end Cert.NeighTerm

end
-- ==== Proof.KernelBody0.lean ====
/-
  What the first kernel's body leaves in its two output blocks, as functions of its input blocks.

  The factor block: for node p and neighbour k, with q = Σ_t (P(p,t) − S(p,k,t))² the squared distance, 2 where
  q = 0 and 1/√q elsewhere. The message block: the layer in product form with that factor, entry by entry —
  Σ_k Σ_f (M(p,k,f) · s(p,k)) · W(k·16+f, j) plus the bias of column j.
-/
import proofs.«154351_j70523363000700_2_alg».proof.Proof.Gen.KernelIdeal.Frame
import proofs.«154351_j70523363000700_2_alg».proof.Proof.LibNeighMsg
import proofs.«154351_j70523363000700_2_alg».proof.Proof.LibNeighTerm

noncomputable section

open scoped BigOperators

namespace Cert.KernelBody0

open Idealize.ShloMosaic Idealize.ShloMosaic.ValueIdx Cert.KernelIdeal Cert.KernelIdeal.Gen Cert.Dense Cert.NeighMsg Cert.NeighTerm

variable {A K C : ℕ} {α : Type}

/-- Positions [A, C] kept as [A, 1, C] and spread over the K neighbours: entry (p, k, t) is P(p, t). -/
theorem posBroadcast_apply (P : (⟨2, ![A, C]⟩ : Shape).Idx → α)
    (h1 : (⟨2, ![A, C]⟩ : Shape).ShapeCasts ⟨3, ![A, 1, C]⟩) (h2 : (⟨3, ![A, 1, C]⟩ : Shape).Broadcasts ⟨3, ![A, K, C]⟩)
    (p : Fin A) (k : Fin K) (t : Fin C) :
    broadcastTo ⟨3, ![A, K, C]⟩ (shapeCast ⟨3, ![A, 1, C]⟩ P h1) h2 (ix3 p k t) = P (ix2 p t) := by
  refine (broadcastTo_apply _ h2 (ix3 p k t) (ix3 p (0 : Fin 1) t) fun ax => ?_).trans ?_
  · match ax with
    | ⟨0, _⟩ =>
      show p.val = if A = 1 then 0 else p.val
      split
      · have := p.isLt; omega
      · rfl
    | ⟨1, _⟩ => rfl
    | ⟨2, _⟩ =>
      show t.val = if C = 1 then 0 else t.val
      split
      · have := t.isLt; omega
      · rfl
  · refine shapeCast_apply P h1 _ (ix2 p t) ?_
    rw [Shape.rowMajor_val_three, Shape.rowMajor_val_two]
    show p.val * C + t.val = (p.val * 1 + 0) * C + t.val
    rw [Nat.mul_one, Nat.add_zero]

/-- The sum over the last axis of a [1024, 8, 3] array, read at (p, k): Σ_t v(p, k, t). -/
theorem reduceLast_apply (v : FVec Ideal S1024x8x3 .f32) (p : Fin 1024) (k : Fin 8) :
    multiReduction .add [2] S1024x8 v 0x00000000#32 Facts₀.reduces_S1024x8x3_S1024x8 (.inl rfl) rfl (ix2 p k)
      = ∑ t : Fin 3, v (ix3 p k t) := by
  refine (Ideal.multiReduction_add_single v _ _ _ _ (ix2 p k)).trans ?_
  exact Finset.sum_congr rfl fun t _ => congrArg v (funext fun a => Fin.ext (by
    match a with
    | ⟨0, _⟩ => rfl
    | ⟨1, _⟩ => rfl
    | ⟨2, _⟩ => rfl))

theorem hz2 : (![0, 0] : Fin 2 → Nat) = fun _ => 0 := funext fun a => by fin_cases a <;> rfl
theorem hz3 : (![0, 0, 0] : Fin 3 → Nat) = fun _ => 0 := funext fun a => by fin_cases a <;> rfl

/-- The factor the first kernel computes from a block of positions and of neighbour positions, at (p, k): with
    q = Σ_t (P(p,t) − S(p,k,t))², it is 2 where q = 0 and 1/√q elsewhere. -/
theorem k0_pay2_apply (P : Vec Ideal S1024x3 .f32) (S : Vec Ideal S1024x8x3 .f32) (p : Fin 1024) (k : Fin 8) :
    k0_pay2 (F := Ideal) P S (ix2 p k)
      = Scalar.select (Ideal.cmp .oeq (∑ t : Fin 3, (P (ix2 p t) - S (ix3 p k t)) * (P (ix2 p t) - S (ix3 p k t))) (Ideal.ofBits .f32 0x00000000#32))
          (Ideal.ofBits .f32 0x40000000#32)
          (Ideal.div (Ideal.ofBits .f32 0x3F800000#32) (Ideal.sqrt (∑ t : Fin 3, (P (ix2 p t) - S (ix3 p k t)) * (P (ix2 p t) - S (ix3 p k t))))) := by
  have hq : multiReduction .add [2] S1024x8
      (mulf (F := Ideal) (φ := .f32)
        (subf (F := Ideal) (φ := .f32) (broadcastTo S1024x8x3 (shapeCast S1024x1x3 P Facts₀.shapeCasts_S1024x3_S1024x1x3) Facts₀.broadcasts_S1024x1x3_S1024x8x3) (shapeCast S1024x8x3 S Facts₀.shapeCasts_S1024x8x3_S1024x8x3))
        (subf (F := Ideal) (φ := .f32) (broadcastTo S1024x8x3 (shapeCast S1024x1x3 P Facts₀.shapeCasts_S1024x3_S1024x1x3) Facts₀.broadcasts_S1024x1x3_S1024x8x3) (shapeCast S1024x8x3 S Facts₀.shapeCasts_S1024x8x3_S1024x8x3)))
      0x00000000#32 Facts₀.reduces_S1024x8x3_S1024x8 (.inl rfl) rfl (ix2 p k)
      = ∑ t : Fin 3, (P (ix2 p t) - S (ix3 p k t)) * (P (ix2 p t) - S (ix3 p k t)) := by
    rw [reduceLast_apply]
    refine Finset.sum_congr rfl fun t _ => ?_
    show (broadcastTo S1024x8x3 (shapeCast S1024x1x3 P _) _ (ix3 p k t) - shapeCast S1024x8x3 S _ (ix3 p k t))
        * (broadcastTo S1024x8x3 (shapeCast S1024x1x3 P _) _ (ix3 p k t) - shapeCast S1024x8x3 S _ (ix3 p k t)) = _
    rw [posBroadcast_apply, shapeCast_self]
  unfold k0_pay2
  show Scalar.select (Ideal.cmp .oeq (multiReduction (F := Ideal) (φ := .f32) (s := S1024x8x3) .add [2] S1024x8 _ 0x00000000#32 _ _ _ (ix2 p k)) (Ideal.ofBits .f32 0x00000000#32))
      (Ideal.ofBits .f32 0x40000000#32)
      (Ideal.div (Ideal.ofBits .f32 0x3F800000#32) (Ideal.sqrt (multiReduction (F := Ideal) (φ := .f32) (s := S1024x8x3) .add [2] S1024x8 _ 0x00000000#32 _ _ _ (ix2 p k)))) = _
  rw [hq]

/-- What the first kernel leaves in its factor block, at (p, k). -/
theorem out0_6_apply (x0 : Vec Ideal S1024x8x16 .bf16) (x1 : Vec Ideal S1024x3 .f32) (x2 : Vec Ideal S1024x8x3 .f32)
    (x3 : Vec Ideal S128x128 .f32) (x4 : Vec Ideal S1x128 .f32) (p : Fin 1024) (k : Fin 8) :
    out0_6 (F := Ideal) x0 x1 x2 x3 x4 (ix2 p k)
      = Scalar.select (Ideal.cmp .oeq (∑ t : Fin 3, (x1 (ix2 p t) - x2 (ix3 p k t)) * (x1 (ix2 p t) - x2 (ix3 p k t))) (Ideal.ofBits .f32 0x00000000#32))
          (Ideal.ofBits .f32 0x40000000#32)
          (Ideal.div (Ideal.ofBits .f32 0x3F800000#32) (Ideal.sqrt (∑ t : Fin 3, (x1 (ix2 p t) - x2 (ix3 p k t)) * (x1 (ix2 p t) - x2 (ix3 p k t))))) := by
  unfold out0_6
  rw [View.canon_unit_zero hz2]
  simp only [View.ld_unit_zero (S := S1024x3) hz2, View.ld_unit_zero (S := S1024x8x3) hz3]
  exact k0_pay2_apply x1 x2 p k

/-- The factor block the first kernel leaves is the factor of the layer's specification. -/
theorem out0_6_eq (x0 : Vec Ideal S1024x8x16 .bf16) (x1 : Vec Ideal S1024x3 .f32) (x2 : Vec Ideal S1024x8x3 .f32)
    (x3 : Vec Ideal S128x128 .f32) (x4 : Vec Ideal S1x128 .f32) :
    out0_6 (F := Ideal) x0 x1 x2 x3 x4 = Cert.NeighMsg.invd x1 x2 := by
  funext j
  obtain ⟨p, k, rfl⟩ : ∃ (p : Fin 1024) (k : Fin 8), j = ix2 p k := ⟨j 0, j 1, eq_ix2 j⟩
  exact out0_6_apply x0 x1 x2 x3 x4 p k

/-- The factor the first kernel computes is the factor of the layer's specification. -/
theorem k0_pay2_eq (P : Vec Ideal S1024x3 .f32) (S : Vec Ideal S1024x8x3 .f32) :
    k0_pay2 (F := Ideal) P S = invd (P : Mat 1024 3) (S : Arr3 1024 8 3) := by
  funext j
  obtain ⟨p, k, rfl⟩ : ∃ (p : Fin 1024) (k : Fin 8), j = ix2 p k := ⟨j 0, j 1, eq_ix2 j⟩
  exact k0_pay2_apply P S p k

/-- One neighbour's matrix product of this kernel, with its own names for the shapes, is that neighbour's term. -/
theorem mm0 (k : ℕ) (k' : Fin 8) (hk : k'.val = k) (M : FVec Ideal S1024x8x16 .bf16) (s : FVec Ideal S1024x8 .f32)
    (Wk : Vec Ideal S16x128 .f32) (h1 : S1024x8x16.Slices ![0, k, 0] S1024x1x16) (h4 : S1024x8.Slices ![0, k] S1024x1) :
    matmul dot_S1024x16_S16x128_S1024x128_1_0_0_1_n_n none
        (truncf .bf16 (mulf (extf .f32 (shapeCast S1024x16 (extractStridedSlice S1024x1x16 ![0, k, 0] M h1)
            Facts₀.shapeCasts_S1024x1x16_S1024x16) Facts₀.bitsLt_bf16_f32)
          (broadcastTo S1024x16 (extractStridedSlice S1024x1 ![0, k] s h4) Facts₀.broadcasts_S1024x1_S1024x16))
          Facts₀.bitsLt_bf16_f32)
        (truncf .bf16 Wk Facts₀.bitsLt_bf16_f32) (constant (F := Ideal) S1024x128 .f32 0x00000000#32)
      = term (M : Arr3 1024 8 16) (s : Mat 1024 8) k' (Wk : Mat 16 128) :=
  matmul_eq_term k k' hk M s Wk h1 _ _ h4 _

/-- What the first kernel leaves in its message block, at (p, q): the layer in product form with the factor of the
    block's positions. -/
theorem out0_5_apply (x0 : Vec Ideal S1024x8x16 .bf16) (x1 : Vec Ideal S1024x3 .f32) (x2 : Vec Ideal S1024x8x3 .f32)
    (x3 : Vec Ideal S128x128 .f32) (x4 : Vec Ideal S1x128 .f32) (p : Fin 1024) (q : Fin 128) :
    out0_5 (F := Ideal) x0 x1 x2 x3 x4 (ix2 p q)
      = layerMul (x0 : Arr3 1024 8 16) (invd (x1 : Mat 1024 3) (x2 : Arr3 1024 8 3)) (x3 : Mat (8 * 16) 128) (x4 : Mat 1 128) (ix2 p q) := by
  unfold out0_5
  rw [View.canon_unit_zero hz2]
  simp only [View.ld_unit_zero (S := S1024x3) hz2, View.ld_unit_zero (S := S1024x8x3) hz3,
    View.ld_unit_zero (S := S1024x8x16) hz3, View.ld_unit_zero (S := S1x128) hz2]
  unfold k0_pay1 k0_pay6 k0_pay4 k0_pay5 k0_pay3
  simp only [shapeCast_self]
  rw [k0_pay2_eq]
  rw [mm0 0 0 rfl, mm0 1 1 rfl, mm0 2 2 rfl, mm0 3 3 rfl, mm0 4 4 rfl, mm0 5 5 rfl, mm0 6 6 rfl, mm0 7 7 rfl]
  refine Eq.trans ?_ (layerMul_eight (x0 : Arr3 1024 8 16) (invd (x1 : Mat 1024 3) (x2 : Arr3 1024 8 3)) (x3 : Mat (8 * 16) 128) (x4 : Mat 1 128)
    (View.ld x3 r0_4) (View.ld x3 r0_5) (View.ld x3 r0_6) (View.ld x3 r0_7) (View.ld x3 r0_8) (View.ld x3 r0_9)
    (View.ld x3 r0_10) (View.ld x3 r0_11)
    (fun f q => slab_apply (K := 8) (D := 16) (H := 128) x3 (0 : Fin 8) 0 rfl Facts₀.inb_S128x128_S16x128_0_0 f q)
    (fun f q => slab_apply (K := 8) (D := 16) (H := 128) x3 (1 : Fin 8) 16 rfl Facts₀.inb_S128x128_S16x128_16_0 f q)
    (fun f q => slab_apply (K := 8) (D := 16) (H := 128) x3 (2 : Fin 8) 32 rfl Facts₀.inb_S128x128_S16x128_32_0 f q)
    (fun f q => slab_apply (K := 8) (D := 16) (H := 128) x3 (3 : Fin 8) 48 rfl Facts₀.inb_S128x128_S16x128_48_0 f q)
    (fun f q => slab_apply (K := 8) (D := 16) (H := 128) x3 (4 : Fin 8) 64 rfl Facts₀.inb_S128x128_S16x128_64_0 f q)
    (fun f q => slab_apply (K := 8) (D := 16) (H := 128) x3 (5 : Fin 8) 80 rfl Facts₀.inb_S128x128_S16x128_80_0 f q)
    (fun f q => slab_apply (K := 8) (D := 16) (H := 128) x3 (6 : Fin 8) 96 rfl Facts₀.inb_S128x128_S16x128_96_0 f q)
    (fun f q => slab_apply (K := 8) (D := 16) (H := 128) x3 (7 : Fin 8) 112 rfl Facts₀.inb_S128x128_S16x128_112_0 f q)
    p q)
  show ((((((((Ideal.ofBits .f32 0x00000000#32 + (_ : EReal)) + (_ : EReal)) + (_ : EReal)) + (_ : EReal)) + (_ : EReal)) + (_ : EReal))
      + (_ : EReal)) + (_ : EReal)) + broadcastTo S1024x128 x4 Facts₀.broadcasts_S1x128_S1024x128 (ix2 p q) = _
  rw [Ideal.ofBits_zero_f32, broadcastTo_1b_ab_apply]

/-- The message block the first kernel leaves is the layer of the specification, in product form, with the factor
    of the block's positions. -/
theorem out0_5_eq (x0 : Vec Ideal S1024x8x16 .bf16) (x1 : Vec Ideal S1024x3 .f32) (x2 : Vec Ideal S1024x8x3 .f32)
    (x3 : Vec Ideal S128x128 .f32) (x4 : Vec Ideal S1x128 .f32) :
    out0_5 (F := Ideal) x0 x1 x2 x3 x4 = Cert.NeighMsg.layerMul x0 (Cert.NeighMsg.invd x1 x2) x3 x4 := by
  funext j
  obtain ⟨p, q, rfl⟩ : ∃ (p : Fin 1024) (q : Fin 128), j = ix2 p q := ⟨j 0, j 1, eq_ix2 j⟩
  exact out0_5_apply x0 x1 x2 x3 x4 p q

end Cert.KernelBody0

end
-- ==== Proof.KernelBody1.lean ====
/-
  What the middle kernel's body leaves in its output block, as a function of its input blocks: the leaky rectifier
  of the layer in product form, entry by entry — with y = Σ_k Σ_f (M(p,k,f) · s(p,k)) · W(k·128+f, j) plus the
  bias of column j, it is y where y ≥ 0 and slope · y elsewhere.
-/
import proofs.«154351_j70523363000700_2_alg».proof.Proof.Gen.KernelIdeal.Frame
import proofs.«154351_j70523363000700_2_alg».proof.Proof.LibNeighMsg
import proofs.«154351_j70523363000700_2_alg».proof.Proof.LibNeighTerm

noncomputable section

open scoped BigOperators

namespace Cert.KernelBody1

open Idealize.ShloMosaic Idealize.ShloMosaic.ValueIdx Cert.KernelIdeal Cert.KernelIdeal.Gen Cert.Dense Cert.NeighMsg Cert.NeighTerm

theorem hz2 : (![0, 0] : Fin 2 → Nat) = fun _ => 0 := funext fun a => by fin_cases a <;> rfl
theorem hz3 : (![0, 0, 0] : Fin 3 → Nat) = fun _ => 0 := funext fun a => by fin_cases a <;> rfl

/-- One neighbour's matrix product of this kernel, with its own names for the shapes, is that neighbour's term. -/
theorem mm1 (k : ℕ) (k' : Fin 8) (hk : k'.val = k) (M : FVec Ideal S1024x8x128 .bf16) (s : FVec Ideal S1024x8 .f32)
    (Wk : Vec Ideal S128x128 .f32) (h1 : S1024x8x128.Slices ![0, k, 0] S1024x1x128) (h4 : S1024x8.Slices ![0, k] S1024x1) :
    matmul dot_S1024x128_S128x128_S1024x128_1_0_0_1_n_n none
        (truncf .bf16 (mulf (extf .f32 (shapeCast S1024x128 (extractStridedSlice S1024x1x128 ![0, k, 0] M h1)
            Facts₀.shapeCasts_S1024x1x128_S1024x128) Facts₀.bitsLt_bf16_f32)
          (broadcastTo S1024x128 (extractStridedSlice S1024x1 ![0, k] s h4) Facts₀.broadcasts_S1024x1_S1024x128))
          Facts₀.bitsLt_bf16_f32)
        (truncf .bf16 Wk Facts₀.bitsLt_bf16_f32) (constant (F := Ideal) S1024x128 .f32 0x00000000#32)
      = term (M : Arr3 1024 8 128) (s : Mat 1024 8) k' (Wk : Mat 128 128) :=
  matmul_eq_term k k' hk M s Wk h1 _ _ h4 _

/-- The kernel's rectifier — compare with a zero splat, multiply by a splat of the slope word, select — read at an
    entry is the leaky rectifier of that entry. -/
theorem rectifier_apply (Y : FVec Ideal S1024x128 .f32) (i : S1024x128.Idx) :
    (truncf .bf16 (select (cmpf .oge Y (broadcast S1024x128 (Scalar.ofBits (F := Ideal) .f32 0x00000000#32))) Y
        (mulf (broadcast S1024x128 (Scalar.ofBits (F := Ideal) .f32 0x3C23D70A#32)) Y)) Facts₀.bitsLt_bf16_f32 : FVec Ideal S1024x128 .bf16) i
      = lreluE (Y i) := rfl

/-- What the middle kernel leaves in its output block, at (p, q): the rectified layer in product form. -/
theorem out1_4_apply (x0 : Vec Ideal S1024x8x128 .bf16) (x1 : Vec Ideal S1024x8 .f32) (x2 : Vec Ideal S1024x128 .f32)
    (x3 : Vec Ideal S1x128 .f32) (p : Fin 1024) (q : Fin 128) :
    out1_4 (F := Ideal) x0 x1 x2 x3 (ix2 p q)
      = lrelu (layerMul (x0 : Arr3 1024 8 128) (x1 : Mat 1024 8) (x2 : Mat (8 * 128) 128) (x3 : Mat 1 128)) (ix2 p q) := by
  unfold out1_4
  rw [View.canon_unit_zero hz2]
  simp only [View.ld_unit_zero (S := S1024x8) hz2, View.ld_unit_zero (S := S1024x8x128) hz3, View.ld_unit_zero (S := S1x128) hz2]
  unfold k1_pay1 k1_pay6 k1_pay4 k1_pay5 k1_pay7 k1_pay2 k1_pay3
  simp only [shapeCast_self]
  rw [mm1 0 0 rfl, mm1 1 1 rfl, mm1 2 2 rfl, mm1 3 3 rfl, mm1 4 4 rfl, mm1 5 5 rfl, mm1 6 6 rfl, mm1 7 7 rfl]
  rw [rectifier_apply]
  refine congrArg lreluE ?_
  refine Eq.trans ?_ (layerMul_eight (x0 : Arr3 1024 8 128) (x1 : Mat 1024 8) (x2 : Mat (8 * 128) 128) (x3 : Mat 1 128)
    (View.ld x2 r1_2) (View.ld x2 r1_3) (View.ld x2 r1_4) (View.ld x2 r1_5) (View.ld x2 r1_6) (View.ld x2 r1_7)
    (View.ld x2 r1_8) (View.ld x2 r1_9)
    (fun f q => slab_apply (K := 8) (D := 128) (H := 128) x2 (0 : Fin 8) 0 rfl Facts₀.inb_S1024x128_S128x128_0_0 f q)
    (fun f q => slab_apply (K := 8) (D := 128) (H := 128) x2 (1 : Fin 8) 128 rfl Facts₀.inb_S1024x128_S128x128_128_0 f q)
    (fun f q => slab_apply (K := 8) (D := 128) (H := 128) x2 (2 : Fin 8) 256 rfl Facts₀.inb_S1024x128_S128x128_256_0 f q)
    (fun f q => slab_apply (K := 8) (D := 128) (H := 128) x2 (3 : Fin 8) 384 rfl Facts₀.inb_S1024x128_S128x128_384_0 f q)
    (fun f q => slab_apply (K := 8) (D := 128) (H := 128) x2 (4 : Fin 8) 512 rfl Facts₀.inb_S1024x128_S128x128_512_0 f q)
    (fun f q => slab_apply (K := 8) (D := 128) (H := 128) x2 (5 : Fin 8) 640 rfl Facts₀.inb_S1024x128_S128x128_640_0 f q)
    (fun f q => slab_apply (K := 8) (D := 128) (H := 128) x2 (6 : Fin 8) 768 rfl Facts₀.inb_S1024x128_S128x128_768_0 f q)
    (fun f q => slab_apply (K := 8) (D := 128) (H := 128) x2 (7 : Fin 8) 896 rfl Facts₀.inb_S1024x128_S128x128_896_0 f q)
    p q)
  show ((((((((Ideal.ofBits .f32 0x00000000#32 + (_ : EReal)) + (_ : EReal)) + (_ : EReal)) + (_ : EReal)) + (_ : EReal)) + (_ : EReal))
      + (_ : EReal)) + (_ : EReal)) + broadcastTo S1024x128 x3 Facts₀.broadcasts_S1x128_S1024x128 (ix2 p q) = _
  rw [Ideal.ofBits_zero_f32, broadcastTo_1b_ab_apply]

/-- The block the middle kernel leaves is the rectified layer of the specification, in product form. -/
theorem out1_4_eq (x0 : Vec Ideal S1024x8x128 .bf16) (x1 : Vec Ideal S1024x8 .f32) (x2 : Vec Ideal S1024x128 .f32)
    (x3 : Vec Ideal S1x128 .f32) :
    out1_4 (F := Ideal) x0 x1 x2 x3 = Cert.NeighMsg.lrelu (Cert.NeighMsg.layerMul x0 x1 x2 x3) := by
  funext j
  obtain ⟨p, q, rfl⟩ : ∃ (p : Fin 1024) (q : Fin 128), j = ix2 p q := ⟨j 0, j 1, eq_ix2 j⟩
  exact out1_4_apply x0 x1 x2 x3 p q

end Cert.KernelBody1

end
-- ==== Proof.KernelBody2.lean ====
/-
  What the last kernel's body leaves in its output block, as a function of its input blocks: the layer in product
  form, entry by entry — Σ_k Σ_f (M(p,k,f) · s(p,k)) · W(k·128+f, j) plus the bias of column j.
-/
import proofs.«154351_j70523363000700_2_alg».proof.Proof.Gen.KernelIdeal.Frame
import proofs.«154351_j70523363000700_2_alg».proof.Proof.LibNeighMsg
import proofs.«154351_j70523363000700_2_alg».proof.Proof.LibNeighTerm

noncomputable section

open scoped BigOperators

namespace Cert.KernelBody2

open Idealize.ShloMosaic Idealize.ShloMosaic.ValueIdx Cert.KernelIdeal Cert.KernelIdeal.Gen Cert.Dense Cert.NeighMsg Cert.NeighTerm

theorem hz2 : (![0, 0] : Fin 2 → Nat) = fun _ => 0 := funext fun a => by fin_cases a <;> rfl
theorem hz3 : (![0, 0, 0] : Fin 3 → Nat) = fun _ => 0 := funext fun a => by fin_cases a <;> rfl

/-- One neighbour's matrix product of this kernel, with its own names for the shapes, is that neighbour's term. -/
theorem mm2 (k : ℕ) (k' : Fin 8) (hk : k'.val = k) (M : FVec Ideal S1024x8x128 .bf16) (s : FVec Ideal S1024x8 .f32)
    (Wk : Vec Ideal S128x16 .f32) (h1 : S1024x8x128.Slices ![0, k, 0] S1024x1x128) (h4 : S1024x8.Slices ![0, k] S1024x1) :
    matmul dot_S1024x128_S128x16_S1024x16_1_0_0_1_n_n none
        (truncf .bf16 (mulf (extf .f32 (shapeCast S1024x128 (extractStridedSlice S1024x1x128 ![0, k, 0] M h1)
            Facts₀.shapeCasts_S1024x1x128_S1024x128) Facts₀.bitsLt_bf16_f32)
          (broadcastTo S1024x128 (extractStridedSlice S1024x1 ![0, k] s h4) Facts₀.broadcasts_S1024x1_S1024x128))
          Facts₀.bitsLt_bf16_f32)
        (truncf .bf16 Wk Facts₀.bitsLt_bf16_f32) (constant (F := Ideal) S1024x16 .f32 0x00000000#32)
      = term (M : Arr3 1024 8 128) (s : Mat 1024 8) k' (Wk : Mat 128 16) :=
  matmul_eq_term k k' hk M s Wk h1 _ _ h4 _

/-- What the last kernel leaves in its output block, at (p, q): the layer in product form. -/
theorem out2_4_apply (x0 : Vec Ideal S1024x8x128 .bf16) (x1 : Vec Ideal S1024x8 .f32) (x2 : Vec Ideal S1024x16 .f32)
    (x3 : Vec Ideal S1x16 .f32) (p : Fin 1024) (q : Fin 16) :
    out2_4 (F := Ideal) x0 x1 x2 x3 (ix2 p q)
      = layerMul (x0 : Arr3 1024 8 128) (x1 : Mat 1024 8) (x2 : Mat (8 * 128) 16) (x3 : Mat 1 16) (ix2 p q) := by
  unfold out2_4
  rw [View.canon_unit_zero hz2]
  simp only [View.ld_unit_zero (S := S1024x8) hz2, View.ld_unit_zero (S := S1024x8x128) hz3, View.ld_unit_zero (S := S1x16) hz2]
  unfold k2_pay1 k2_pay6 k2_pay4 k2_pay5 k2_pay7 k2_pay2 k2_pay3
  simp only [shapeCast_self]
  rw [mm2 0 0 rfl, mm2 1 1 rfl, mm2 2 2 rfl, mm2 3 3 rfl, mm2 4 4 rfl, mm2 5 5 rfl, mm2 6 6 rfl, mm2 7 7 rfl]
  refine Eq.trans ?_ (layerMul_eight (x0 : Arr3 1024 8 128) (x1 : Mat 1024 8) (x2 : Mat (8 * 128) 16) (x3 : Mat 1 16)
    (View.ld x2 r2_2) (View.ld x2 r2_3) (View.ld x2 r2_4) (View.ld x2 r2_5) (View.ld x2 r2_6) (View.ld x2 r2_7)
    (View.ld x2 r2_8) (View.ld x2 r2_9)
    (fun f q => slab_apply (K := 8) (D := 128) (H := 16) x2 (0 : Fin 8) 0 rfl Facts₀.inb_S1024x16_S128x16_0_0 f q)
    (fun f q => slab_apply (K := 8) (D := 128) (H := 16) x2 (1 : Fin 8) 128 rfl Facts₀.inb_S1024x16_S128x16_128_0 f q)
    (fun f q => slab_apply (K := 8) (D := 128) (H := 16) x2 (2 : Fin 8) 256 rfl Facts₀.inb_S1024x16_S128x16_256_0 f q)
    (fun f q => slab_apply (K := 8) (D := 128) (H := 16) x2 (3 : Fin 8) 384 rfl Facts₀.inb_S1024x16_S128x16_384_0 f q)
    (fun f q => slab_apply (K := 8) (D := 128) (H := 16) x2 (4 : Fin 8) 512 rfl Facts₀.inb_S1024x16_S128x16_512_0 f q)
    (fun f q => slab_apply (K := 8) (D := 128) (H := 16) x2 (5 : Fin 8) 640 rfl Facts₀.inb_S1024x16_S128x16_640_0 f q)
    (fun f q => slab_apply (K := 8) (D := 128) (H := 16) x2 (6 : Fin 8) 768 rfl Facts₀.inb_S1024x16_S128x16_768_0 f q)
    (fun f q => slab_apply (K := 8) (D := 128) (H := 16) x2 (7 : Fin 8) 896 rfl Facts₀.inb_S1024x16_S128x16_896_0 f q)
    p q)
  show ((((((((Ideal.ofBits .f32 0x00000000#32 + (_ : EReal)) + (_ : EReal)) + (_ : EReal)) + (_ : EReal)) + (_ : EReal)) + (_ : EReal))
      + (_ : EReal)) + (_ : EReal)) + broadcastTo S1024x16 x3 Facts₀.broadcasts_S1x16_S1024x16 (ix2 p q) = _
  rw [Ideal.ofBits_zero_f32, broadcastTo_1b_ab_apply]

/-- The block the last kernel leaves is the layer of the specification, in product form. -/
theorem out2_4_eq (x0 : Vec Ideal S1024x8x128 .bf16) (x1 : Vec Ideal S1024x8 .f32) (x2 : Vec Ideal S1024x16 .f32)
    (x3 : Vec Ideal S1x16 .f32) :
    out2_4 (F := Ideal) x0 x1 x2 x3 = Cert.NeighMsg.layerMul x0 x1 x2 x3 := by
  funext j
  obtain ⟨p, q, rfl⟩ : ∃ (p : Fin 1024) (q : Fin 16), j = ix2 p q := ⟨j 0, j 1, eq_ix2 j⟩
  exact out2_4_apply x0 x1 x2 x3 p q

end Cert.KernelBody2

end
-- ==== Proof.LibNeighRows.lean ====
/-
  Entries of the neighbour-message layer on a block of rows, read on the whole arrays.

  Entry (p, j) of the layer depends on the messages and the factors through row p only, and on the weight matrix and
  the bias row as wholes. So when a block's row p is the whole arrays' row r — entry by entry — and the block's
  weights and bias are the whole ones, the block's entry (p, j) is the whole layer's entry (r, j). The same holds of
  the distance factor, which depends on a node's own position and on its neighbours' positions only. The statements
  are over plain arrays and plain indices, with the row correspondences as hypotheses.
-/
import proofs.«154351_j70523363000700_2_alg».proof.Proof.LibNeighMsg

noncomputable section

open scoped BigOperators

namespace Cert.NeighRows

open Idealize.ShloMosaic Idealize.ShloMosaic.ValueIdx Cert.Dense Cert.NeighMsg

variable {A A' K D H : ℕ}

/-- The layer at entry y of a block is the layer at entry i of the whole arrays. -/
theorem layerMul_at (Mb : Arr3 A K D) (sb : Mat A K) (Wb : Mat (K * D) H) (bb : Mat 1 H)
    (M : Arr3 A' K D) (s : Mat A' K) (W : Mat (K * D) H) (b : Mat 1 H)
    (y : (⟨2, ![A, H]⟩ : Shape).Idx) (i : (⟨2, ![A', H]⟩ : Shape).Idx)
    (hM : ∀ k f, Mb (ix3 (y 0) k f) = M (ix3 (i 0) k f)) (hs : ∀ k, sb (ix2 (y 0) k) = s (ix2 (i 0) k))
    (hW : ∀ j, Wb j = W j) (hb : ∀ j, bb j = b j) (h1 : y 1 = i 1) :
    layerMul Mb sb Wb bb y = layerMul M s W b i := by
  show (∑ k : Fin K, ∑ f : Fin D, (Mb (ix3 (y 0) k f) * sb (ix2 (y 0) k)) * Wb (ix2 (finProdFinEquiv (k, f)) (y 1)))
        + bb (ix2 (0 : Fin 1) (y 1))
      = (∑ k : Fin K, ∑ f : Fin D, (M (ix3 (i 0) k f) * s (ix2 (i 0) k)) * W (ix2 (finProdFinEquiv (k, f)) (i 1)))
        + b (ix2 (0 : Fin 1) (i 1))
  rw [h1, hb]
  refine congrArg (· + b (ix2 (0 : Fin 1) (i 1))) ?_
  exact Finset.sum_congr rfl fun k _ => Finset.sum_congr rfl fun f _ => by rw [hM k f, hs k, hW]

/-- The same under the leaky rectifier. -/
theorem lrelu_layerMul_at (Mb : Arr3 A K D) (sb : Mat A K) (Wb : Mat (K * D) H) (bb : Mat 1 H)
    (M : Arr3 A' K D) (s : Mat A' K) (W : Mat (K * D) H) (b : Mat 1 H)
    (y : (⟨2, ![A, H]⟩ : Shape).Idx) (i : (⟨2, ![A', H]⟩ : Shape).Idx)
    (hM : ∀ k f, Mb (ix3 (y 0) k f) = M (ix3 (i 0) k f)) (hs : ∀ k, sb (ix2 (y 0) k) = s (ix2 (i 0) k))
    (hW : ∀ j, Wb j = W j) (hb : ∀ j, bb j = b j) (h1 : y 1 = i 1) :
    lrelu (layerMul Mb sb Wb bb) y = lrelu (layerMul M s W b) i := by
  show lreluE (layerMul Mb sb Wb bb y) = lreluE (layerMul M s W b i)
  rw [layerMul_at Mb sb Wb bb M s W b y i hM hs hW hb h1]

/-- The distance factor at entry y of a block is the factor at entry i of the whole arrays. -/
theorem invd_at (Pb : Mat A 3) (Sb : Arr3 A K 3) (P : Mat A' 3) (S : Arr3 A' K 3)
    (y : (⟨2, ![A, K]⟩ : Shape).Idx) (i : (⟨2, ![A', K]⟩ : Shape).Idx)
    (hP : ∀ t, Pb (ix2 (y 0) t) = P (ix2 (i 0) t)) (hS : ∀ k t, Sb (ix3 (y 0) k t) = S (ix3 (i 0) k t)) (h1 : y 1 = i 1) :
    invd Pb Sb y = invd P S i := by
  have e := invd_row Pb Sb P S (y 0) (i 0) hP hS (y 1)
  calc invd Pb Sb y = invd Pb Sb (ix2 (y 0) (y 1)) := congrArg (invd Pb Sb) (eq_ix2 y)
    _ = invd P S (ix2 (i 0) (y 1)) := e
    _ = invd P S (ix2 (i 0) (i 1)) := congrArg (fun z => invd P S (ix2 (i 0) z)) h1
    _ = invd P S i := (congrArg (invd P S) (eq_ix2 i)).symm

end Cert.NeighRows

end
-- ==== Proof.KernelArrays0.lean ====
/-
  From blocks to arrays: what each region's output arrays hold after the region.

  Each region walks 256 grid points; point t reads rows 1024·t … 1024·t+1023 of the row-blocked operands (the
  messages, the positions, the factors), the whole weight matrix and the whole bias row, and writes rows
  1024·t … 1024·t+1023 of each output. Since an output row depends on the operands through that row only (and on the
  weights and bias as wholes), the block point t writes is the block of ONE whole-array function of the region's
  operand arrays; the 256 blocks tile the output, so after the region the output array IS that function.
  The body's result on a block is taken as a hypothesis here (the body modules prove it).
-/
import proofs.«154351_j70523363000700_2_alg».proof.Proof.Gen.KernelIdeal.Frame
import proofs.«154351_j70523363000700_2_alg».proof.Proof.LibNeighRows

set_option maxRecDepth 16384

noncomputable section

namespace Cert.KernelArrays0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.NeighMsg Cert.NeighRows

variable (V : (c : Dev nD) → (b : Ref sig .tc) → Buf (Elt Ideal) ((c : Thread nD τ).loc b))

/-! ## Region 0: the input layer and the distance factors -/

/-- The printed index maps of region 0, decided over the grid: the row-blocked windows sit at block t, the weights
    and the bias at block 0. -/
theorem idx0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The factor array of region 0 as one function of the positions and the neighbours' positions. -/
abbrev G0_6 (c : Dev nD) : Mat 262144 8 := invd (K := 8) (V c main_arg1) (V c main_v14)

/-- The layer array of region 0 as one function of the region's operand arrays. -/
abbrev G0_5 (c : Dev nD) : Mat 262144 128 :=
  layerMul (K := 8) (D := 16) (V c main_v7) (G0_6 V c) (V c main_arg3) (V c main_arg4)

/-- A node's own position: row p of point t's block is row 1024·t + p of the position array. -/
theorem pos_block (c : Dev nD) (t : Fin cfg0.N) (p : Fin 1024) (r : Fin 262144) (hr : r.val = t.val * 1024 + p.val) (u : Fin 3) :
    iblk0 V c 1 t (ix2 p u) = V c main_arg1 (ix2 r u) := by
  obtain ⟨-, -, -, e10, e11, -⟩ := idx0 t
  show V c main_arg1 (((cfg0.win 1).blk t).view.emb (ix2 p u)) = V c main_arg1 (ix2 r u)
  refine congrArg (V c main_arg1) (funext fun a => Fin.ext ?_)
  match a with
  | ⟨0, _⟩ => show win0_1.index t (0 : Fin 2) * 1024 + 1 * p.val = r.val; omega
  | ⟨1, _⟩ => show win0_1.index t (1 : Fin 2) * 3 + 1 * u.val = u.val; omega

/-- The neighbours' positions: row p of point t's block is row 1024·t + p of the gathered array. -/
theorem nbr_block (c : Dev nD) (t : Fin cfg0.N) (p : Fin 1024) (r : Fin 262144) (hr : r.val = t.val * 1024 + p.val) (k : Fin 8) (u : Fin 3) :
    iblk0 V c 2 t (ix3 p k u) = V c main_v14 (ix3 r k u) := by
  obtain ⟨-, -, -, -, -, e20, e21, e22, -⟩ := idx0 t
  show V c main_v14 (((cfg0.win 2).blk t).view.emb (ix3 p k u)) = V c main_v14 (ix3 r k u)
  refine congrArg (V c main_v14) (funext fun a => Fin.ext ?_)
  match a with
  | ⟨0, _⟩ => show win0_2.index t (0 : Fin 3) * 1024 + 1 * p.val = r.val; omega
  | ⟨1, _⟩ => show win0_2.index t (1 : Fin 3) * 8 + 1 * k.val = k.val; omega
  | ⟨2, _⟩ => show win0_2.index t (2 : Fin 3) * 3 + 1 * u.val = u.val; omega

/-- What point t writes back to the factor array is block t of the factor function. -/
theorem flushed0_6 (hout : ∀ (x0 : Vec Ideal S1024x8x16 .bf16) (x1 : Vec Ideal S1024x3 .f32) (x2 : Vec Ideal S1024x8x3 .f32) (x3 : Vec Ideal S128x128 .f32) (x4 : Vec Ideal S1x128 .f32),
      out0_6 (F := Ideal) x0 x1 x2 x3 x4 = invd (K := 8) x1 x2)
    (c : Dev nD) (t : Fin cfg0.N) :
    (dat0 (F := Ideal) V c).flushed 6 t = ((cfg0.win 6).blk t).view.read (Elt Ideal) (G0_6 V c) := by
  show (cfg0.win 6).cut (grid0.coords t) ((dat0 (F := Ideal) V c).after 6 t) = _
  rw [after0_6, hout]
  obtain ⟨-, -, -, -, -, -, -, -, -, -, -, -, -, -, e60, e61⟩ := idx0 t
  funext y
  show invd (K := 8) (iblk0 V c 1 t) (iblk0 V c 2 t) y = G0_6 V c (((cfg0.win 6).blk t).view.emb y)
  have hr : ((((cfg0.win 6).blk t).view.emb y) 0).val = t.val * 1024 + (y 0).val := by
    show win0_6.index t (0 : Fin 2) * 1024 + 1 * (y 0).val = t.val * 1024 + (y 0).val; omega
  refine invd_at (iblk0 V c 1 t) (iblk0 V c 2 t) (V c main_arg1) (V c main_v14) y (((cfg0.win 6).blk t).view.emb y) ?_ ?_ ?_
  · intro u; exact pos_block V c t (y 0) ((((cfg0.win 6).blk t).view.emb y) 0) hr u
  · intro k u; exact nbr_block V c t (y 0) ((((cfg0.win 6).blk t).view.emb y) 0) hr k u
  · refine Fin.ext ?_
    show (y 1).val = win0_6.index t (1 : Fin 2) * 8 + 1 * (y 1).val
    omega

/-- What point t writes back to the layer array is block t of the layer function. -/
theorem flushed0_5 (hout : ∀ (x0 : Vec Ideal S1024x8x16 .bf16) (x1 : Vec Ideal S1024x3 .f32) (x2 : Vec Ideal S1024x8x3 .f32) (x3 : Vec Ideal S128x128 .f32) (x4 : Vec Ideal S1x128 .f32),
      out0_5 (F := Ideal) x0 x1 x2 x3 x4 = layerMul (K := 8) (D := 16) x0 (invd (K := 8) x1 x2) x3 x4)
    (c : Dev nD) (t : Fin cfg0.N) :
    (dat0 (F := Ideal) V c).flushed 5 t = ((cfg0.win 5).blk t).view.read (Elt Ideal) (G0_5 V c) := by
  show (cfg0.win 5).cut (grid0.coords t) ((dat0 (F := Ideal) V c).after 5 t) = _
  rw [after0_5, hout]
  obtain ⟨e00, e01, e02, -, -, -, -, -, e30, e31, e40, e41, e50, e51, -, -⟩ := idx0 t
  funext y
  show layerMul (K := 8) (D := 16) (iblk0 V c 0 t) (invd (K := 8) (iblk0 V c 1 t) (iblk0 V c 2 t)) (iblk0 V c 3 t) (iblk0 V c 4 t) y
      = G0_5 V c (((cfg0.win 5).blk t).view.emb y)
  have hr : ((((cfg0.win 5).blk t).view.emb y) 0).val = t.val * 1024 + (y 0).val := by
    show win0_5.index t (0 : Fin 2) * 1024 + 1 * (y 0).val = t.val * 1024 + (y 0).val; omega
  refine layerMul_at (iblk0 V c 0 t) (invd (K := 8) (iblk0 V c 1 t) (iblk0 V c 2 t)) (iblk0 V c 3 t) (iblk0 V c 4 t)
    (V c main_v7) (G0_6 V c) (V c main_arg3) (V c main_arg4) y (((cfg0.win 5).blk t).view.emb y) ?_ ?_ ?_ ?_ ?_
  · intro k f
    show V c main_v7 (((cfg0.win 0).blk t).view.emb (ix3 (y 0) k f)) = V c main_v7 (ix3 ((((cfg0.win 5).blk t).view.emb y) 0) k f)
    refine congrArg (V c main_v7) (funext fun a => Fin.ext ?_)
    match a with
    | ⟨0, _⟩ => show win0_0.index t (0 : Fin 3) * 1024 + 1 * (y 0).val = win0_5.index t (0 : Fin 2) * 1024 + 1 * (y 0).val; omega
    | ⟨1, _⟩ => show win0_0.index t (1 : Fin 3) * 8 + 1 * k.val = k.val; omega
    | ⟨2, _⟩ => show win0_0.index t (2 : Fin 3) * 16 + 1 * f.val = f.val; omega
  · intro k
    exact invd_row (iblk0 V c 1 t) (iblk0 V c 2 t) (V c main_arg1) (V c main_v14) (y 0) ((((cfg0.win 5).blk t).view.emb y) 0)
      (fun u => pos_block V c t (y 0) _ hr u) (fun k' u => nbr_block V c t (y 0) _ hr k' u) k
  · intro j
    show V c main_arg3 (((cfg0.win 3).blk t).view.emb j) = V c main_arg3 j
    refine congrArg (V c main_arg3) (funext fun a => Fin.ext ?_)
    match a with
    | ⟨0, _⟩ => show win0_3.index t (0 : Fin 2) * 128 + 1 * (j 0).val = (j 0).val; omega
    | ⟨1, _⟩ => show win0_3.index t (1 : Fin 2) * 128 + 1 * (j 1).val = (j 1).val; omega
  · intro j
    show V c main_arg4 (((cfg0.win 4).blk t).view.emb j) = V c main_arg4 j
    refine congrArg (V c main_arg4) (funext fun a => Fin.ext ?_)
    match a with
    | ⟨0, _⟩ => show win0_4.index t (0 : Fin 2) * 1 + 1 * (j 0).val = (j 0).val; omega
    | ⟨1, _⟩ => show win0_4.index t (1 : Fin 2) * 128 + 1 * (j 1).val = (j 1).val; omega
  · refine Fin.ext ?_
    show (y 1).val = win0_5.index t (1 : Fin 2) * 128 + 1 * (y 1).val
    omega

theorem mem_blk0_5 (t : Fin cfg0.N) (i : S262144x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v15_0).slice (win0_5.rect t)).set ↔ _
  rw [View.set_slice_whole, Rect.mem_set_unit]
  exact Iff.rfl

theorem mem_blk0_6 (t : Fin cfg0.N) (i : S262144x8.Idx) :
    i ∈ ((cfg0.win 6).blk t).view.set ↔ ∀ a : Fin 2, win0_6.index t a * S1024x8.size a ≤ (i a).val ∧ (i a).val < win0_6.index t a * S1024x8.size a + S1024x8.size a := by
  show i ∈ ((View.whole main_v15_1).slice (win0_6.rect t)).set ↔ _
  rw [View.set_slice_whole, Rect.mem_set_unit]
  exact Iff.rfl

/-- Row r of the layer array is written by point r / 1024. -/
theorem cover0_5 (i : S262144x128.Idx) : ∃ t : Fin cfg0.N, (cfg0.win 5).flush t = true ∧ i ∈ ((cfg0.win 5).blk t).view.set := by
  have hi0 : (i 0).val < 262144 := (i 0).isLt
  have hi1 : (i 1).val < 128 := (i 1).isLt
  have hN : cfg0.N = 256 := N_0
  refine ⟨⟨(i 0).val / 1024, by rw [hN]; omega⟩, flush0_5 _, ?_⟩
  rw [mem_blk0_5]
  obtain ⟨-, -, -, -, -, -, -, -, -, -, -, -, e50, e51, -, -⟩ := idx0 ⟨(i 0).val / 1024, by rw [hN]; omega⟩
  intro a
  match a with
  | ⟨0, _⟩ =>
    show win0_5.index _ (0 : Fin 2) * 1024 ≤ (i 0).val ∧ (i 0).val < win0_5.index _ (0 : Fin 2) * 1024 + 1024
    rw [e50]; show (i 0).val / 1024 * 1024 ≤ (i 0).val ∧ (i 0).val < (i 0).val / 1024 * 1024 + 1024; omega
  | ⟨1, _⟩ =>
    show win0_5.index _ (1 : Fin 2) * 128 ≤ (i 1).val ∧ (i 1).val < win0_5.index _ (1 : Fin 2) * 128 + 128
    rw [e51]; omega

/-- Row r of the factor array is written by point r / 1024. -/
theorem cover0_6 (i : S262144x8.Idx) : ∃ t : Fin cfg0.N, (cfg0.win 6).flush t = true ∧ i ∈ ((cfg0.win 6).blk t).view.set := by
  have hi0 : (i 0).val < 262144 := (i 0).isLt
  have hi1 : (i 1).val < 8 := (i 1).isLt
  have hN : cfg0.N = 256 := N_0
  refine ⟨⟨(i 0).val / 1024, by rw [hN]; omega⟩, flush0_6 _, ?_⟩
  rw [mem_blk0_6]
  obtain ⟨-, -, -, -, -, -, -, -, -, -, -, -, -, -, e60, e61⟩ := idx0 ⟨(i 0).val / 1024, by rw [hN]; omega⟩
  intro a
  match a with
  | ⟨0, _⟩ =>
    show win0_6.index _ (0 : Fin 2) * 1024 ≤ (i 0).val ∧ (i 0).val < win0_6.index _ (0 : Fin 2) * 1024 + 1024
    rw [e60]; show (i 0).val / 1024 * 1024 ≤ (i 0).val ∧ (i 0).val < (i 0).val / 1024 * 1024 + 1024; omega
  | ⟨1, _⟩ =>
    show win0_6.index _ (1 : Fin 2) * 8 ≤ (i 1).val ∧ (i 1).val < win0_6.index _ (1 : Fin 2) * 8 + 8
    rw [e61]; omega

/-- After region 0 the factor array is the factor function of the positions. -/
theorem final0_6 (hout : ∀ (x0 : Vec Ideal S1024x8x16 .bf16) (x1 : Vec Ideal S1024x3 .f32) (x2 : Vec Ideal S1024x8x3 .f32) (x3 : Vec Ideal S128x128 .f32) (x4 : Vec Ideal S1x128 .f32),
      out0_6 (F := Ideal) x0 x1 x2 x3 x4 = invd (K := 8) x1 x2) (c : Dev nD) :
    (dat0 (F := Ideal) V c).arrAt 6 cfg0.N = G0_6 V c :=
  (dat0 (F := Ideal) V c).arrAt_eq_of_cover 6 (G0_6 V c) (fun t _ => flushed0_6 V hout c t) cover0_6

/-- After region 0 the layer array is the layer of the region's operand arrays. -/
theorem final0_5 (hout : ∀ (x0 : Vec Ideal S1024x8x16 .bf16) (x1 : Vec Ideal S1024x3 .f32) (x2 : Vec Ideal S1024x8x3 .f32) (x3 : Vec Ideal S128x128 .f32) (x4 : Vec Ideal S1x128 .f32),
      out0_5 (F := Ideal) x0 x1 x2 x3 x4 = layerMul (K := 8) (D := 16) x0 (invd (K := 8) x1 x2) x3 x4) (c : Dev nD) :
    (dat0 (F := Ideal) V c).arrAt 5 cfg0.N = G0_5 V c :=
  (dat0 (F := Ideal) V c).arrAt_eq_of_cover 5 (G0_5 V c) (fun t _ => flushed0_5 V hout c t) cover0_5

end Cert.KernelArrays0

end
-- ==== Proof.KernelArrays1.lean ====
/-
  From blocks to arrays: what each region's output arrays hold after the region.

  Each region walks 256 grid points; point t reads rows 1024·t … 1024·t+1023 of the row-blocked operands (the
  messages, the positions, the factors), the whole weight matrix and the whole bias row, and writes rows
  1024·t … 1024·t+1023 of each output. Since an output row depends on the operands through that row only (and on the
  weights and bias as wholes), the block point t writes is the block of ONE whole-array function of the region's
  operand arrays; the 256 blocks tile the output, so after the region the output array IS that function.
  The body's result on a block is taken as a hypothesis here (the body modules prove it).
-/
import proofs.«154351_j70523363000700_2_alg».proof.Proof.Gen.KernelIdeal.Frame
import proofs.«154351_j70523363000700_2_alg».proof.Proof.LibNeighRows

set_option maxRecDepth 16384

noncomputable section

namespace Cert.KernelArrays1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.NeighMsg Cert.NeighRows

variable (V : (c : Dev nD) → (b : Ref sig .tc) → Buf (Elt Ideal) ((c : Thread nD τ).loc b))

/-! ## Region 1: the hidden layer -/

/-- The printed index maps of region 1, decided over the grid: the row-blocked windows sit at block t, the weights
    and the bias at block 0. -/
theorem idx1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The output array of region 1 (the rectified layer) as one function of the region's operand arrays. -/
abbrev G1_4 (c : Dev nD) : Mat 262144 128 :=
  lrelu (layerMul (K := 8) (D := 128) (V c main_v22) (V c main_v15_1) (V c main_arg5) (V c main_arg6))

/-- What point t writes back is block t of that function. -/
theorem flushed1_4 (hout : ∀ (x0 : Vec Ideal S1024x8x128 .bf16) (x1 : Vec Ideal S1024x8 .f32) (x2 : Vec Ideal S1024x128 .f32) (x3 : Vec Ideal S1x128 .f32),
      out1_4 (F := Ideal) x0 x1 x2 x3 = lrelu (layerMul (K := 8) (D := 128) x0 x1 x2 x3))
    (c : Dev nD) (t : Fin cfg1.N) :
    (dat1 (F := Ideal) V c).flushed 4 t = ((cfg1.win 4).blk t).view.read (Elt Ideal) (G1_4 V c) := by
  show (cfg1.win 4).cut (grid1.coords t) ((dat1 (F := Ideal) V c).after 4 t) = _
  rw [after1_4, hout]
  obtain ⟨e00, e01, e02, e10, e11, e20, e21, e30, e31, e40, e41⟩ := idx1 t
  funext y
  show lrelu (layerMul (K := 8) (D := 128) (iblk1 V c 0 t) (iblk1 V c 1 t) (iblk1 V c 2 t) (iblk1 V c 3 t)) y
      = G1_4 V c (((cfg1.win 4).blk t).view.emb y)
  refine lrelu_layerMul_at (iblk1 V c 0 t) (iblk1 V c 1 t) (iblk1 V c 2 t) (iblk1 V c 3 t)
    (V c main_v22) (V c main_v15_1) (V c main_arg5) (V c main_arg6) y (((cfg1.win 4).blk t).view.emb y) ?_ ?_ ?_ ?_ ?_
  · intro k f
    show V c main_v22 (((cfg1.win 0).blk t).view.emb (ix3 (y 0) k f)) = V c main_v22 (ix3 ((((cfg1.win 4).blk t).view.emb y) 0) k f)
    refine congrArg (V c main_v22) (funext fun a => Fin.ext ?_)
    match a with
    | ⟨0, _⟩ => show win1_0.index t (0 : Fin 3) * 1024 + 1 * (y 0).val = win1_4.index t (0 : Fin 2) * 1024 + 1 * (y 0).val; omega
    | ⟨1, _⟩ => show win1_0.index t (1 : Fin 3) * 8 + 1 * k.val = k.val; omega
    | ⟨2, _⟩ => show win1_0.index t (2 : Fin 3) * 128 + 1 * f.val = f.val; omega
  · intro k
    show V c main_v15_1 (((cfg1.win 1).blk t).view.emb (ix2 (y 0) k)) = V c main_v15_1 (ix2 ((((cfg1.win 4).blk t).view.emb y) 0) k)
    refine congrArg (V c main_v15_1) (funext fun a => Fin.ext ?_)
    match a with
    | ⟨0, _⟩ => show win1_1.index t (0 : Fin 2) * 1024 + 1 * (y 0).val = win1_4.index t (0 : Fin 2) * 1024 + 1 * (y 0).val; omega
    | ⟨1, _⟩ => show win1_1.index t (1 : Fin 2) * 8 + 1 * k.val = k.val; omega
  · intro j
    show V c main_arg5 (((cfg1.win 2).blk t).view.emb j) = V c main_arg5 j
    refine congrArg (V c main_arg5) (funext fun a => Fin.ext ?_)
    match a with
    | ⟨0, _⟩ => show win1_2.index t (0 : Fin 2) * 1024 + 1 * (j 0).val = (j 0).val; omega
    | ⟨1, _⟩ => show win1_2.index t (1 : Fin 2) * 128 + 1 * (j 1).val = (j 1).val; omega
  · intro j
    show V c main_arg6 (((cfg1.win 3).blk t).view.emb j) = V c main_arg6 j
    refine congrArg (V c main_arg6) (funext fun a => Fin.ext ?_)
    match a with
    | ⟨0, _⟩ => show win1_3.index t (0 : Fin 2) * 1 + 1 * (j 0).val = (j 0).val; omega
    | ⟨1, _⟩ => show win1_3.index t (1 : Fin 2) * 128 + 1 * (j 1).val = (j 1).val; omega
  · refine Fin.ext ?_
    show (y 1).val = win1_4.index t (1 : Fin 2) * 128 + 1 * (y 1).val
    omega

/-- An index of the output array is in point t's block iff each coordinate is in the block's range. -/
theorem mem_blk1_4 (t : Fin cfg1.N) (i : S262144x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v23).slice (win1_4.rect t)).set ↔ _
  rw [View.set_slice_whole, Rect.mem_set_unit]
  exact Iff.rfl

/-- Row r of the output is written by point r / 1024. -/
theorem cover1_4 (i : S262144x128.Idx) : ∃ t : Fin cfg1.N, (cfg1.win 4).flush t = true ∧ i ∈ ((cfg1.win 4).blk t).view.set := by
  have hi0 : (i 0).val < 262144 := (i 0).isLt
  have hi1 : (i 1).val < 128 := (i 1).isLt
  have hN : cfg1.N = 256 := N_1
  refine ⟨⟨(i 0).val / 1024, by rw [hN]; omega⟩, flush1_4 _, ?_⟩
  rw [mem_blk1_4]
  obtain ⟨-, -, -, -, -, -, -, -, -, e40, e41⟩ := idx1 ⟨(i 0).val / 1024, by rw [hN]; omega⟩
  intro a
  match a with
  | ⟨0, _⟩ =>
    show win1_4.index _ (0 : Fin 2) * 1024 ≤ (i 0).val ∧ (i 0).val < win1_4.index _ (0 : Fin 2) * 1024 + 1024
    rw [e40]; show (i 0).val / 1024 * 1024 ≤ (i 0).val ∧ (i 0).val < (i 0).val / 1024 * 1024 + 1024; omega
  | ⟨1, _⟩ =>
    show win1_4.index _ (1 : Fin 2) * 128 ≤ (i 1).val ∧ (i 1).val < win1_4.index _ (1 : Fin 2) * 128 + 128
    rw [e41]; omega

/-- After region 1 its output array is the rectified layer of the region's operand arrays. -/
theorem final1_4 (hout : ∀ (x0 : Vec Ideal S1024x8x128 .bf16) (x1 : Vec Ideal S1024x8 .f32) (x2 : Vec Ideal S1024x128 .f32) (x3 : Vec Ideal S1x128 .f32),
      out1_4 (F := Ideal) x0 x1 x2 x3 = lrelu (layerMul (K := 8) (D := 128) x0 x1 x2 x3)) (c : Dev nD) :
    (dat1 (F := Ideal) V c).arrAt 4 cfg1.N = G1_4 V c :=
  (dat1 (F := Ideal) V c).arrAt_eq_of_cover 4 (G1_4 V c) (fun t _ => flushed1_4 V hout c t) cover1_4

end Cert.KernelArrays1

end
-- ==== Proof.KernelArrays2.lean ====
/-
  From blocks to arrays: what each region's output arrays hold after the region.

  Each region walks 256 grid points; point t reads rows 1024·t … 1024·t+1023 of the row-blocked operands (the
  messages, the positions, the factors), the whole weight matrix and the whole bias row, and writes rows
  1024·t … 1024·t+1023 of each output. Since an output row depends on the operands through that row only (and on the
  weights and bias as wholes), the block point t writes is the block of ONE whole-array function of the region's
  operand arrays; the 256 blocks tile the output, so after the region the output array IS that function.
  The body's result on a block is taken as a hypothesis here (the body modules prove it).
-/
import proofs.«154351_j70523363000700_2_alg».proof.Proof.Gen.KernelIdeal.Frame
import proofs.«154351_j70523363000700_2_alg».proof.Proof.LibNeighRows

set_option maxRecDepth 16384

noncomputable section

namespace Cert.KernelArrays2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.NeighMsg Cert.NeighRows

variable (V : (c : Dev nD) → (b : Ref sig .tc) → Buf (Elt Ideal) ((c : Thread nD τ).loc b))

/-! ## Region 2: the output layer -/

/-- The printed index maps of region 2, decided over the grid: the row-blocked windows sit at block t, the weights
    and the bias at block 0. -/
theorem idx2 : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The output array of region 2 as one function of the region's operand arrays. -/
abbrev G2_4 (c : Dev nD) : Mat 262144 16 :=
  layerMul (K := 8) (D := 128) (V c main_v30) (V c main_v15_1) (V c main_arg7) (V c main_arg8)

/-- What point t writes back is block t of that function. -/
theorem flushed2_4 (hout : ∀ (x0 : Vec Ideal S1024x8x128 .bf16) (x1 : Vec Ideal S1024x8 .f32) (x2 : Vec Ideal S1024x16 .f32) (x3 : Vec Ideal S1x16 .f32),
      out2_4 (F := Ideal) x0 x1 x2 x3 = layerMul (K := 8) (D := 128) x0 x1 x2 x3)
    (c : Dev nD) (t : Fin cfg2.N) :
    (dat2 (F := Ideal) V c).flushed 4 t = ((cfg2.win 4).blk t).view.read (Elt Ideal) (G2_4 V c) := by
  show (cfg2.win 4).cut (grid2.coords t) ((dat2 (F := Ideal) V c).after 4 t) = _
  rw [after2_4, hout]
  obtain ⟨e00, e01, e02, e10, e11, e20, e21, e30, e31, e40, e41⟩ := idx2 t
  funext y
  show layerMul (K := 8) (D := 128) (iblk2 V c 0 t) (iblk2 V c 1 t) (iblk2 V c 2 t) (iblk2 V c 3 t) y
      = G2_4 V c (((cfg2.win 4).blk t).view.emb y)
  refine layerMul_at (iblk2 V c 0 t) (iblk2 V c 1 t) (iblk2 V c 2 t) (iblk2 V c 3 t)
    (V c main_v30) (V c main_v15_1) (V c main_arg7) (V c main_arg8) y (((cfg2.win 4).blk t).view.emb y) ?_ ?_ ?_ ?_ ?_
  · intro k f
    show V c main_v30 (((cfg2.win 0).blk t).view.emb (ix3 (y 0) k f)) = V c main_v30 (ix3 ((((cfg2.win 4).blk t).view.emb y) 0) k f)
    refine congrArg (V c main_v30) (funext fun a => Fin.ext ?_)
    match a with
    | ⟨0, _⟩ => show win2_0.index t (0 : Fin 3) * 1024 + 1 * (y 0).val = win2_4.index t (0 : Fin 2) * 1024 + 1 * (y 0).val; omega
    | ⟨1, _⟩ => show win2_0.index t (1 : Fin 3) * 8 + 1 * k.val = k.val; omega
    | ⟨2, _⟩ => show win2_0.index t (2 : Fin 3) * 128 + 1 * f.val = f.val; omega
  · intro k
    show V c main_v15_1 (((cfg2.win 1).blk t).view.emb (ix2 (y 0) k)) = V c main_v15_1 (ix2 ((((cfg2.win 4).blk t).view.emb y) 0) k)
    refine congrArg (V c main_v15_1) (funext fun a => Fin.ext ?_)
    match a with
    | ⟨0, _⟩ => show win2_1.index t (0 : Fin 2) * 1024 + 1 * (y 0).val = win2_4.index t (0 : Fin 2) * 1024 + 1 * (y 0).val; omega
    | ⟨1, _⟩ => show win2_1.index t (1 : Fin 2) * 8 + 1 * k.val = k.val; omega
  · intro j
    show V c main_arg7 (((cfg2.win 2).blk t).view.emb j) = V c main_arg7 j
    refine congrArg (V c main_arg7) (funext fun a => Fin.ext ?_)
    match a with
    | ⟨0, _⟩ => show win2_2.index t (0 : Fin 2) * 1024 + 1 * (j 0).val = (j 0).val; omega
    | ⟨1, _⟩ => show win2_2.index t (1 : Fin 2) * 16 + 1 * (j 1).val = (j 1).val; omega
  · intro j
    show V c main_arg8 (((cfg2.win 3).blk t).view.emb j) = V c main_arg8 j
    refine congrArg (V c main_arg8) (funext fun a => Fin.ext ?_)
    match a with
    | ⟨0, _⟩ => show win2_3.index t (0 : Fin 2) * 1 + 1 * (j 0).val = (j 0).val; omega
    | ⟨1, _⟩ => show win2_3.index t (1 : Fin 2) * 16 + 1 * (j 1).val = (j 1).val; omega
  · refine Fin.ext ?_
    show (y 1).val = win2_4.index t (1 : Fin 2) * 16 + 1 * (y 1).val
    omega

/-- An index of the output array is in point t's block iff each coordinate is in the block's range. -/
theorem mem_blk2_4 (t : Fin cfg2.N) (i : S262144x16.Idx) :
    i ∈ ((cfg2.win 4).blk t).view.set ↔ ∀ a : Fin 2, win2_4.index t a * S1024x16.size a ≤ (i a).val ∧ (i a).val < win2_4.index t a * S1024x16.size a + S1024x16.size a := by
  show i ∈ ((View.whole main_v31).slice (win2_4.rect t)).set ↔ _
  rw [View.set_slice_whole, Rect.mem_set_unit]
  exact Iff.rfl

/-- Row r of the output is written by point r / 1024. -/
theorem cover2_4 (i : S262144x16.Idx) : ∃ t : Fin cfg2.N, (cfg2.win 4).flush t = true ∧ i ∈ ((cfg2.win 4).blk t).view.set := by
  have hi0 : (i 0).val < 262144 := (i 0).isLt
  have hi1 : (i 1).val < 16 := (i 1).isLt
  have hN : cfg2.N = 256 := N_2
  refine ⟨⟨(i 0).val / 1024, by rw [hN]; omega⟩, flush2_4 _, ?_⟩
  rw [mem_blk2_4]
  obtain ⟨-, -, -, -, -, -, -, -, -, e40, e41⟩ := idx2 ⟨(i 0).val / 1024, by rw [hN]; omega⟩
  intro a
  match a with
  | ⟨0, _⟩ =>
    show win2_4.index _ (0 : Fin 2) * 1024 ≤ (i 0).val ∧ (i 0).val < win2_4.index _ (0 : Fin 2) * 1024 + 1024
    rw [e40]; show (i 0).val / 1024 * 1024 ≤ (i 0).val ∧ (i 0).val < (i 0).val / 1024 * 1024 + 1024; omega
  | ⟨1, _⟩ =>
    show win2_4.index _ (1 : Fin 2) * 16 ≤ (i 1).val ∧ (i 1).val < win2_4.index _ (1 : Fin 2) * 16 + 16
    rw [e41]; omega

/-- After region 2 its output array is the layer of the region's operand arrays. -/
theorem final2_4 (hout : ∀ (x0 : Vec Ideal S1024x8x128 .bf16) (x1 : Vec Ideal S1024x8 .f32) (x2 : Vec Ideal S1024x16 .f32) (x3 : Vec Ideal S1x16 .f32),
      out2_4 (F := Ideal) x0 x1 x2 x3 = layerMul (K := 8) (D := 128) x0 x1 x2 x3) (c : Dev nD) :
    (dat2 (F := Ideal) V c).arrAt 4 cfg2.N = G2_4 V c :=
  (dat2 (F := Ideal) V c).arrAt_eq_of_cover 4 (G2_4 V c) (fun t _ => flushed2_4 V hout c t) cover2_4

end Cert.KernelArrays2

end
-- ==== Proof.LibNeighNet.lean ====
/-
  Three neighbour-message layers in a row, on the extended reals, generic in the sizes.

  Each layer gathers, for every node, the rows of its K neighbours from the previous layer's output (the gathering is
  a parameter here: any function from a node array to a node-by-neighbour array), weights them by the neighbour's
  distance, mixes them with a matrix and adds a bias row; the hidden layer is followed by the leaky rectifier. The
  distances are the same in all three layers: they come from the node positions and the gathered neighbour
  positions only.

  In the product spelling every layer multiplies by the factor (2 where the squared distance is 0, 1/√q elsewhere);
  in the quotient spelling every layer divides by the distance (1/2 where √q is 0, √q elsewhere). For real positions
  the two networks are one function: layer by layer, multiplying by the factor is dividing by the distance.
-/
import proofs.«154351_j70523363000700_2_alg».proof.Proof.LibNeighMsg

noncomputable section

namespace Cert.NeighNet

open Idealize.ShloMosaic Idealize.ShloMosaic.ValueIdx Cert.Dense Cert.NeighMsg

variable {A K D0 H0 H1 H2 : ℕ}

/-- The network in product form. -/
def netMul (g0 : Mat A D0 → Arr3 A K D0) (gp : Mat A 3 → Arr3 A K 3) (g1 : Mat A H0 → Arr3 A K H0) (g2 : Mat A H1 → Arr3 A K H1)
    (x : Mat A D0) (P : Mat A 3) (W0 : Mat (K * D0) H0) (b0 : Mat 1 H0) (W1 : Mat (K * H0) H1) (b1 : Mat 1 H1)
    (W2 : Mat (K * H1) H2) (b2 : Mat 1 H2) : Mat A H2 :=
  layerMul (g2 (lrelu (layerMul (g1 (layerMul (g0 x) (invd P (gp P)) W0 b0)) (invd P (gp P)) W1 b1))) (invd P (gp P)) W2 b2

/-- The network in quotient form. -/
def netDiv (g0 : Mat A D0 → Arr3 A K D0) (gp : Mat A 3 → Arr3 A K 3) (g1 : Mat A H0 → Arr3 A K H0) (g2 : Mat A H1 → Arr3 A K H1)
    (x : Mat A D0) (P : Mat A 3) (W0 : Mat (K * D0) H0) (b0 : Mat 1 H0) (W1 : Mat (K * H0) H1) (b1 : Mat 1 H1)
    (W2 : Mat (K * H1) H2) (b2 : Mat 1 H2) : Mat A H2 :=
  layerDiv (g2 (lrelu (layerDiv (g1 (layerDiv (g0 x) (dist P (gp P)) W0 b0)) (dist P (gp P)) W1 b1))) (dist P (gp P)) W2 b2

/-- For real positions (the nodes' and the gathered neighbours') the two networks are one function. -/
theorem netMul_eq_netDiv (g0 : Mat A D0 → Arr3 A K D0) (gp : Mat A 3 → Arr3 A K 3) (g1 : Mat A H0 → Arr3 A K H0) (g2 : Mat A H1 → Arr3 A K H1)
    (x : Mat A D0) (P : Mat A 3) (W0 : Mat (K * D0) H0) (b0 : Mat 1 H0) (W1 : Mat (K * H0) H1) (b1 : Mat 1 H1)
    (W2 : Mat (K * H1) H2) (b2 : Mat 1 H2)
    (hP : ∀ i, ∃ r : ℝ, P i = (r : EReal)) (hS : ∀ i, ∃ r : ℝ, gp P i = (r : EReal)) :
    netMul g0 gp g1 g2 x P W0 b0 W1 b1 W2 b2 = netDiv g0 gp g1 g2 x P W0 b0 W1 b1 W2 b2 := by
  have h := mul_invd_eq_div_dist P (gp P) hP hS
  unfold netMul netDiv
  rw [layerMul_eq_layerDiv (g0 x) (invd P (gp P)) (dist P (gp P)) W0 b0 h,
    layerMul_eq_layerDiv _ (invd P (gp P)) (dist P (gp P)) W1 b1 h,
    layerMul_eq_layerDiv _ (invd P (gp P)) (dist P (gp P)) W2 b2 h]

end Cert.NeighNet

end
-- ==== Proof.KernelValue.lean ====
/-
  The contents of the buffers at each boundary of the program, as functions of the launch memory.

  The program alternates host stretches and pipelined regions. A host stretch wraps the neighbour table's negative
  entries, adds a unit axis and gathers rows of a node array by it; a region leaves in its output arrays the layer
  function of its operand arrays and nothing else changes. Reading the boundaries in order, from the launch to the
  return, the result buffer holds the three-layer network in product form, with the three gathers taken by the same
  wrapped table; a change of float format on the way into a gather is the identity on the extended reals.
-/
import proofs.«154351_j70523363000700_2_alg».proof.Proof.Gen.KernelIdeal.Frame
import proofs.«154351_j70523363000700_2_alg».proof.Proof.KernelArrays0
import proofs.«154351_j70523363000700_2_alg».proof.Proof.KernelArrays1
import proofs.«154351_j70523363000700_2_alg».proof.Proof.KernelArrays2
import proofs.«154351_j70523363000700_2_alg».proof.Proof.LibNeighNet

set_option maxRecDepth 16384

noncomputable section

namespace Cert.KernelValue

open Cert.KernelIdeal Cert.KernelIdeal.Gen
open Idealize.ShloMosaic Idealize.ShloMosaic.TcCoe Idealize.ShloMosaic.ValueIdx Idealize.ShloMosaic.StableHlo
open Idealize.SL Idealize.SL.Sem
open Cert.Dense Cert.NeighMsg Cert.NeighNet

variable (m : (ℓ : Loc nD τ sig) → Buf (Elt Ideal) ℓ) (ρ : Dev nD → PrngReg)

/-- The neighbour table made safe for indexing: an entry below zero is raised by the row count, and a trailing unit
    axis is added. -/
def wrapIdx (x2 : (⟨S262144x8, .i32⟩ : BufTy).Contents (Elt Ideal)) : (⟨S262144x8x1, .i32⟩ : BufTy).Contents (Elt Ideal) :=
  broadcastInDim S262144x8x1 ![0, 1] Gen.bcast_S262144x8_S262144x8x1_0_1
    (select (cmpi .slt x2 (broadcastInDim S262144x8 ![] Gen.bcast_S_S262144x8 (constantI S_ 32 0#32)))
      (addi x2 (broadcastInDim S262144x8 ![] Gen.bcast_S_S262144x8 (constantI S_ 32 262144#32))) x2)

/-- The rows of a 16-column node array at each node's neighbours. -/
def gather16 (x2 : (⟨S262144x8, .i32⟩ : BufTy).Contents (Elt Ideal)) (x : Mat 262144 16) : Arr3 262144 8 16 :=
  Host.gather gather_S262144x16_S262144x8x1_S262144x8x16_2_0_n_n_0_2_116 x (wrapIdx x2)
/-- The rows of the position array at each node's neighbours. -/
def gather3 (x2 : (⟨S262144x8, .i32⟩ : BufTy).Contents (Elt Ideal)) (x : Mat 262144 3) : Arr3 262144 8 3 :=
  Host.gather gather_S262144x3_S262144x8x1_S262144x8x3_2_0_n_n_0_2_13 x (wrapIdx x2)
/-- The rows of a 128-column node array at each node's neighbours. -/
def gather128 (x2 : (⟨S262144x8, .i32⟩ : BufTy).Contents (Elt Ideal)) (x : Mat 262144 128) : Arr3 262144 8 128 :=
  Host.gather gather_S262144x128_S262144x8x1_S262144x8x128_2_0_n_n_0_2_1128 x (wrapIdx x2)

/-! ## The first host stretch -/

theorem W1_main_v7 (c : Dev nD) : W1 m ρ c (Proc.devRef .tc main_v7) = gather16 (m ((c : Thread nD τ).loc main_arg2)) (m ((c : Thread nD τ).loc main_arg0)) := by
  show StableHlo.after hostOps0 (W0 m ρ c) (Proc.devRef .tc main_v7) = _
  after_results
  rfl
theorem W1_main_v14 (c : Dev nD) : W1 m ρ c (Proc.devRef .tc main_v14) = gather3 (m ((c : Thread nD τ).loc main_arg2)) (m ((c : Thread nD τ).loc main_arg1)) := by
  show StableHlo.after hostOps0 (W0 m ρ c) (Proc.devRef .tc main_v14) = _
  after_results
  rfl
theorem W1_main_arg1 (c : Dev nD) : W1 m ρ c (Proc.devRef .tc main_arg1) = m ((c : Thread nD τ).loc main_arg1) := by
  show StableHlo.after hostOps0 (W0 m ρ c) (Proc.devRef .tc main_arg1) = _
  after_results
theorem W1_main_arg2 (c : Dev nD) : W1 m ρ c (Proc.devRef .tc main_arg2) = m ((c : Thread nD τ).loc main_arg2) := by
  show StableHlo.after hostOps0 (W0 m ρ c) (Proc.devRef .tc main_arg2) = _
  after_results
theorem W1_main_arg3 (c : Dev nD) : W1 m ρ c (Proc.devRef .tc main_arg3) = m ((c : Thread nD τ).loc main_arg3) := by
  show StableHlo.after hostOps0 (W0 m ρ c) (Proc.devRef .tc main_arg3) = _
  after_results
theorem W1_main_arg4 (c : Dev nD) : W1 m ρ c (Proc.devRef .tc main_arg4) = m ((c : Thread nD τ).loc main_arg4) := by
  show StableHlo.after hostOps0 (W0 m ρ c) (Proc.devRef .tc main_arg4) = _
  after_results
theorem W1_main_arg5 (c : Dev nD) : W1 m ρ c (Proc.devRef .tc main_arg5) = m ((c : Thread nD τ).loc main_arg5) := by
  show StableHlo.after hostOps0 (W0 m ρ c) (Proc.devRef .tc main_arg5) = _
  after_results
theorem W1_main_arg6 (c : Dev nD) : W1 m ρ c (Proc.devRef .tc main_arg6) = m ((c : Thread nD τ).loc main_arg6) := by
  show StableHlo.after hostOps0 (W0 m ρ c) (Proc.devRef .tc main_arg6) = _
  after_results
theorem W1_main_arg7 (c : Dev nD) : W1 m ρ c (Proc.devRef .tc main_arg7) = m ((c : Thread nD τ).loc main_arg7) := by
  show StableHlo.after hostOps0 (W0 m ρ c) (Proc.devRef .tc main_arg7) = _
  after_results
theorem W1_main_arg8 (c : Dev nD) : W1 m ρ c (Proc.devRef .tc main_arg8) = m ((c : Thread nD τ).loc main_arg8) := by
  show StableHlo.after hostOps0 (W0 m ρ c) (Proc.devRef .tc main_arg8) = _
  after_results

/-! ## Region 0, the second host stretch, region 1, the third host stretch -/

theorem W2_main_arg2 (c : Dev nD) : W2 m ρ c (Proc.devRef .tc main_arg2) = W1 m ρ c (Proc.devRef .tc main_arg2) := W2_of_ne m ρ c main_arg2 (by decide)
theorem W2_main_arg5 (c : Dev nD) : W2 m ρ c (Proc.devRef .tc main_arg5) = W1 m ρ c (Proc.devRef .tc main_arg5) := W2_of_ne m ρ c main_arg5 (by decide)
theorem W2_main_arg6 (c : Dev nD) : W2 m ρ c (Proc.devRef .tc main_arg6) = W1 m ρ c (Proc.devRef .tc main_arg6) := W2_of_ne m ρ c main_arg6 (by decide)
theorem W2_main_arg7 (c : Dev nD) : W2 m ρ c (Proc.devRef .tc main_arg7) = W1 m ρ c (Proc.devRef .tc main_arg7) := W2_of_ne m ρ c main_arg7 (by decide)
theorem W2_main_arg8 (c : Dev nD) : W2 m ρ c (Proc.devRef .tc main_arg8) = W1 m ρ c (Proc.devRef .tc main_arg8) := W2_of_ne m ρ c main_arg8 (by decide)
theorem W3_main_arg2 (c : Dev nD) : W3 m ρ c (Proc.devRef .tc main_arg2) = W2 m ρ c (Proc.devRef .tc main_arg2) := by
  show StableHlo.after hostOps1 (W2 m ρ c) (Proc.devRef .tc main_arg2) = _
  after_results
theorem W3_main_arg5 (c : Dev nD) : W3 m ρ c (Proc.devRef .tc main_arg5) = W2 m ρ c (Proc.devRef .tc main_arg5) := by
  show StableHlo.after hostOps1 (W2 m ρ c) (Proc.devRef .tc main_arg5) = _
  after_results
theorem W3_main_arg6 (c : Dev nD) : W3 m ρ c (Proc.devRef .tc main_arg6) = W2 m ρ c (Proc.devRef .tc main_arg6) := by
  show StableHlo.after hostOps1 (W2 m ρ c) (Proc.devRef .tc main_arg6) = _
  after_results
theorem W3_main_arg7 (c : Dev nD) : W3 m ρ c (Proc.devRef .tc main_arg7) = W2 m ρ c (Proc.devRef .tc main_arg7) := by
  show StableHlo.after hostOps1 (W2 m ρ c) (Proc.devRef .tc main_arg7) = _
  after_results
theorem W3_main_arg8 (c : Dev nD) : W3 m ρ c (Proc.devRef .tc main_arg8) = W2 m ρ c (Proc.devRef .tc main_arg8) := by
  show StableHlo.after hostOps1 (W2 m ρ c) (Proc.devRef .tc main_arg8) = _
  after_results
theorem W3_main_v15_1 (c : Dev nD) : W3 m ρ c (Proc.devRef .tc main_v15_1) = W2 m ρ c (Proc.devRef .tc main_v15_1) := by
  show StableHlo.after hostOps1 (W2 m ρ c) (Proc.devRef .tc main_v15_1) = _
  after_results
theorem W4_main_arg2 (c : Dev nD) : W4 m ρ c (Proc.devRef .tc main_arg2) = W3 m ρ c (Proc.devRef .tc main_arg2) := W4_of_ne m ρ c main_arg2 (by decide)
theorem W4_main_arg7 (c : Dev nD) : W4 m ρ c (Proc.devRef .tc main_arg7) = W3 m ρ c (Proc.devRef .tc main_arg7) := W4_of_ne m ρ c main_arg7 (by decide)
theorem W4_main_arg8 (c : Dev nD) : W4 m ρ c (Proc.devRef .tc main_arg8) = W3 m ρ c (Proc.devRef .tc main_arg8) := W4_of_ne m ρ c main_arg8 (by decide)
theorem W5_main_arg7 (c : Dev nD) : W5 m ρ c (Proc.devRef .tc main_arg7) = W4 m ρ c (Proc.devRef .tc main_arg7) := by
  show StableHlo.after hostOps2 (W4 m ρ c) (Proc.devRef .tc main_arg7) = _
  after_results
theorem W5_main_arg8 (c : Dev nD) : W5 m ρ c (Proc.devRef .tc main_arg8) = W4 m ρ c (Proc.devRef .tc main_arg8) := by
  show StableHlo.after hostOps2 (W4 m ρ c) (Proc.devRef .tc main_arg8) = _
  after_results
theorem W5_main_v15_1 (c : Dev nD) : W5 m ρ c (Proc.devRef .tc main_v15_1) = W4 m ρ c (Proc.devRef .tc main_v15_1) := by
  show StableHlo.after hostOps2 (W4 m ρ c) (Proc.devRef .tc main_v15_1) = _
  after_results

theorem W3_main_v22 (c : Dev nD) : W3 m ρ c (Proc.devRef .tc main_v22) = gather128 (W2 m ρ c (Proc.devRef .tc main_arg2)) (W2 m ρ c (Proc.devRef .tc main_v15_0)) := by
  show StableHlo.after hostOps1 (W2 m ρ c) (Proc.devRef .tc main_v22) = _
  after_results
  rfl
theorem W5_main_v30 (c : Dev nD) : W5 m ρ c (Proc.devRef .tc main_v30) = gather128 (W4 m ρ c (Proc.devRef .tc main_arg2)) (W4 m ρ c (Proc.devRef .tc main_v23)) := by
  show StableHlo.after hostOps2 (W4 m ρ c) (Proc.devRef .tc main_v30) = _
  after_results
  rfl
theorem W4_main_v15_1 (c : Dev nD) : W4 m ρ c (Proc.devRef .tc main_v15_1) = W3 m ρ c (Proc.devRef .tc main_v15_1) :=
  (W4_arr m ρ c 1).trans (((dat1 (V3 m ρ) c).arrAt_in 1 rfl _).trans (A_eq1 (V3 m ρ) c 1))

/-! ## The boundaries composed -/

/-- What each kernel body leaves in its output blocks, as the layer functions of its input blocks. -/
abbrev Body06 : Prop := ∀ (x0 : Vec Ideal S1024x8x16 .bf16) (x1 : Vec Ideal S1024x3 .f32) (x2 : Vec Ideal S1024x8x3 .f32) (x3 : Vec Ideal S128x128 .f32) (x4 : Vec Ideal S1x128 .f32),
      out0_6 (F := Ideal) x0 x1 x2 x3 x4 = invd (K := 8) x1 x2
abbrev Body05 : Prop := ∀ (x0 : Vec Ideal S1024x8x16 .bf16) (x1 : Vec Ideal S1024x3 .f32) (x2 : Vec Ideal S1024x8x3 .f32) (x3 : Vec Ideal S128x128 .f32) (x4 : Vec Ideal S1x128 .f32),
      out0_5 (F := Ideal) x0 x1 x2 x3 x4 = layerMul (K := 8) (D := 16) x0 (invd (K := 8) x1 x2) x3 x4
abbrev Body14 : Prop := ∀ (x0 : Vec Ideal S1024x8x128 .bf16) (x1 : Vec Ideal S1024x8 .f32) (x2 : Vec Ideal S1024x128 .f32) (x3 : Vec Ideal S1x128 .f32),
      out1_4 (F := Ideal) x0 x1 x2 x3 = lrelu (layerMul (K := 8) (D := 128) x0 x1 x2 x3)
abbrev Body24 : Prop := ∀ (x0 : Vec Ideal S1024x8x128 .bf16) (x1 : Vec Ideal S1024x8 .f32) (x2 : Vec Ideal S1024x16 .f32) (x3 : Vec Ideal S1x16 .f32),
      out2_4 (F := Ideal) x0 x1 x2 x3 = layerMul (K := 8) (D := 128) x0 x1 x2 x3

section Composed

/-- The neighbour table reaches every boundary unchanged. -/
theorem W2_arg2 (c : Dev nD) : W2 m ρ c (Proc.devRef .tc main_arg2) = m ((c : Thread nD τ).loc main_arg2) := (W2_main_arg2 m ρ c).trans (W1_main_arg2 m ρ c)
theorem W4_arg2 (c : Dev nD) : W4 m ρ c (Proc.devRef .tc main_arg2) = m ((c : Thread nD τ).loc main_arg2) :=
  (W4_main_arg2 m ρ c).trans ((W3_main_arg2 m ρ c).trans (W2_arg2 m ρ c))

/-- The factors after region 0. -/
theorem W2_factors (h06 : Body06) (c : Dev nD) : W2 m ρ c (Proc.devRef .tc main_v15_1) = invd (K := 8) (m ((c : Thread nD τ).loc main_arg1)) (gather3 (m ((c : Thread nD τ).loc main_arg2)) (m ((c : Thread nD τ).loc main_arg1))) := by
  refine (W2_arr m ρ c 6).trans ((Cert.KernelArrays0.final0_6 (V1 m ρ) h06 c).trans ?_)
  show invd (K := 8) (W1 m ρ c (Proc.devRef .tc main_arg1)) (W1 m ρ c (Proc.devRef .tc main_v14)) = _
  rw [W1_main_arg1, W1_main_v14]

/-- The first layer after region 0. -/
theorem W2_layer (h06 : Body06) (h05 : Body05) (c : Dev nD) : W2 m ρ c (Proc.devRef .tc main_v15_0)
    = layerMul (K := 8) (D := 16) (gather16 (m ((c : Thread nD τ).loc main_arg2)) (m ((c : Thread nD τ).loc main_arg0))) (invd (K := 8) (m ((c : Thread nD τ).loc main_arg1)) (gather3 (m ((c : Thread nD τ).loc main_arg2)) (m ((c : Thread nD τ).loc main_arg1)))) (m ((c : Thread nD τ).loc main_arg3)) (m ((c : Thread nD τ).loc main_arg4)) := by
  refine (W2_arr m ρ c 5).trans ((Cert.KernelArrays0.final0_5 (V1 m ρ) h05 c).trans ?_)
  show layerMul (K := 8) (D := 16) (W1 m ρ c (Proc.devRef .tc main_v7)) (invd (K := 8) (W1 m ρ c (Proc.devRef .tc main_arg1)) (W1 m ρ c (Proc.devRef .tc main_v14)))
      (W1 m ρ c (Proc.devRef .tc main_arg3)) (W1 m ρ c (Proc.devRef .tc main_arg4)) = _
  rw [W1_main_v7, W1_main_arg1, W1_main_v14, W1_main_arg3, W1_main_arg4]

/-- The factors reach regions 1 and 2 unchanged. -/
theorem W3_factors (h06 : Body06) (c : Dev nD) : W3 m ρ c (Proc.devRef .tc main_v15_1) = invd (K := 8) (m ((c : Thread nD τ).loc main_arg1)) (gather3 (m ((c : Thread nD τ).loc main_arg2)) (m ((c : Thread nD τ).loc main_arg1))) :=
  (W3_main_v15_1 m ρ c).trans (W2_factors m ρ h06 c)
theorem W5_factors (h06 : Body06) (c : Dev nD) : W5 m ρ c (Proc.devRef .tc main_v15_1) = invd (K := 8) (m ((c : Thread nD τ).loc main_arg1)) (gather3 (m ((c : Thread nD τ).loc main_arg2)) (m ((c : Thread nD τ).loc main_arg1))) :=
  (W5_main_v15_1 m ρ c).trans ((W4_main_v15_1 m ρ c).trans (W3_factors m ρ h06 c))

/-- The second layer after region 1. -/
theorem W4_layer (h06 : Body06) (h05 : Body05) (h14 : Body14) (c : Dev nD) : W4 m ρ c (Proc.devRef .tc main_v23)
    = lrelu (layerMul (K := 8) (D := 128)
        (gather128 (m ((c : Thread nD τ).loc main_arg2)) (layerMul (K := 8) (D := 16) (gather16 (m ((c : Thread nD τ).loc main_arg2)) (m ((c : Thread nD τ).loc main_arg0))) (invd (K := 8) (m ((c : Thread nD τ).loc main_arg1)) (gather3 (m ((c : Thread nD τ).loc main_arg2)) (m ((c : Thread nD τ).loc main_arg1)))) (m ((c : Thread nD τ).loc main_arg3)) (m ((c : Thread nD τ).loc main_arg4))))
        (invd (K := 8) (m ((c : Thread nD τ).loc main_arg1)) (gather3 (m ((c : Thread nD τ).loc main_arg2)) (m ((c : Thread nD τ).loc main_arg1)))) (m ((c : Thread nD τ).loc main_arg5)) (m ((c : Thread nD τ).loc main_arg6))) := by
  refine (W4_arr m ρ c 4).trans ((Cert.KernelArrays1.final1_4 (V3 m ρ) h14 c).trans ?_)
  show lrelu (layerMul (K := 8) (D := 128) (W3 m ρ c (Proc.devRef .tc main_v22)) (W3 m ρ c (Proc.devRef .tc main_v15_1)) (W3 m ρ c (Proc.devRef .tc main_arg5)) (W3 m ρ c (Proc.devRef .tc main_arg6))) = _
  rw [W3_main_v22, W3_factors m ρ h06, W2_arg2, W2_layer m ρ h06 h05, W3_main_arg5, W3_main_arg6, W2_main_arg5, W2_main_arg6, W1_main_arg5, W1_main_arg6]

/-- The result buffer at the return: the three-layer network in product form. -/
theorem result (h06 : Body06) (h05 : Body05) (h14 : Body14) (h24 : Body24) (c : Dev nD) : W6 m ρ c (Proc.devRef .tc main_v31)
    = netMul (K := 8) (gather16 (m ((c : Thread nD τ).loc main_arg2))) (gather3 (m ((c : Thread nD τ).loc main_arg2))) (gather128 (m ((c : Thread nD τ).loc main_arg2))) (gather128 (m ((c : Thread nD τ).loc main_arg2)))
        (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 4).trans ((Cert.KernelArrays2.final2_4 (V5 m ρ) h24 c).trans ?_)
  show layerMul (K := 8) (D := 128) (W5 m ρ c (Proc.devRef .tc main_v30)) (W5 m ρ c (Proc.devRef .tc main_v15_1)) (W5 m ρ c (Proc.devRef .tc main_arg7)) (W5 m ρ c (Proc.devRef .tc main_arg8)) = _
  rw [W5_main_v30, W5_factors m ρ h06, W4_arg2, W4_layer m ρ h06 h05 h14, W5_main_arg7, W5_main_arg8, W4_main_arg7, W4_main_arg8,
    W3_main_arg7, W3_main_arg8, W2_main_arg7, W2_main_arg8, W1_main_arg7, W1_main_arg8]
  rfl

end Composed

end Cert.KernelValue

end
-- ==== Proof.RefLayers.lean ====
/-
  The reference program is the specification's three quotient-form layers.

  The reference gathers, for every node p and each of its 8 neighbours k, the neighbour's message and position,
  computes the distance d(p,k) = √(Σ_t (P(p,t) − S(p,k,t))²) (replaced by 1/2 where it is 0), divides every message
  by it, lays the 8 weighted messages of a node side by side (column k·D + f), multiplies by a weight matrix and adds
  a bias row; the hidden layer applies a leaky rectifier. Read entry by entry on the extended reals, each of these
  stages is the corresponding definition of the specification: the distance arrays are `dist` of the positions and
  the gathered positions, and each layer's output is `layerDiv` (under `lrelu` for the hidden layer) of the
  gathered messages, the distance array, the weights and the bias. The gathers stay opaque arrays.

  Every proof has the same shape: split the index into its coordinates, identify the indices at which the program
  reads its operands (broadcasts drop or repeat a coordinate, the reshape of an 8×D block to 8·D columns reads
  column c back as neighbour c / D and feature c % D, a contraction pairs row entry k with column entry k), read
  the program one operation at a time, and compare with the definition unfolded at the same entry.
-/
import proofs.«154351_j70523363000700_2_alg».proof.Proof.Gen.ReferenceIdeal.Read
import proofs.«154351_j70523363000700_2_alg».proof.Proof.LibNeighMsg

noncomputable section

open scoped BigOperators

namespace Cert.RefLayers

open Idealize.ShloMosaic Idealize.ShloMosaic.ValueIdx Cert.ReferenceIdeal Cert.ReferenceIdeal.Gen Cert.ReferenceIdeal.Read

/-! ## The distance arrays -/

/-- The reference's distance array is the specification's: at node p and neighbour k it is the square root of
    Σ_t (P(p,t) − S(p,k,t))², replaced by 1/2 where that root is 0. The host's sum starts from the zero word,
    which is the real 0, so it adds nothing. -/
theorem dist0 (x1 : (⟨S262144x3, .f32⟩ : BufTy).Contents (Elt Ideal)) (x2 : (⟨S262144x8, .i32⟩ : BufTy).Contents (Elt Ideal)) :
    val_main_v23 (F := Ideal) x1 x2 = Cert.NeighMsg.dist x1 (val_main_v13 (F := Ideal) x1 x2) := by
  funext i
  obtain ⟨p, k, z, rfl⟩ : ∃ (p : Fin 262144) (k : Fin 8) (z : Fin 1), i = ix3 p k z := ⟨i 0, i 1, i 2, eq_ix3 i⟩
  have e19 : idx_main_v19 (ix3 p k z) = ix2 p k := funext fun a => by match a with | ⟨0, _⟩ => rfl | ⟨1, _⟩ => rfl
  have e18 : ∀ t : Fin 3, idx_main_v18 (ix2 p k) t = ix3 p k t := fun t => funext fun a => by
    match a with | ⟨0, _⟩ => rfl | ⟨1, _⟩ => rfl | ⟨2, _⟩ => rfl
  have e15 : ∀ t : Fin 3, idx_main_v14 (idx_main_v15 (ix3 p k t)) = ix2 p t := fun t => funext fun a => by
    match a with | ⟨0, _⟩ => rfl | ⟨1, _⟩ => rfl
  rw [val_main_v23_apply, val_main_v22_apply, val_main_v20_apply, val_main_v19_apply, e19, val_main_v18_apply,
    val_main_call0_v0_apply, val_main_cst_4_apply, val_main_v21_apply, val_main_cst_3_apply, val_main_cst_apply]
  simp only [e18, val_main_v17_apply, val_main_v16_apply, val_main_v15_apply, val_main_v14_apply, e15]
  show Scalar.select (Ideal.cmp .oeq (Ideal.sqrt (Ideal.ofBits .f32 0x00000000#32 + Cert.NeighMsg.sqd x1 (val_main_v13 (F := Ideal) x1 x2) (ix2 p k)))
        (Ideal.ofBits .f32 0x00000000#32)) (Ideal.ofBits .f32 0x3F000000#32)
      (Ideal.sqrt (Ideal.ofBits .f32 0x00000000#32 + Cert.NeighMsg.sqd x1 (val_main_v13 (F := Ideal) x1 x2) (ix2 p k)))
    = Scalar.select (Ideal.cmp .oeq (Ideal.sqrt (Cert.NeighMsg.sqd x1 (val_main_v13 (F := Ideal) x1 x2) (ix2 p k)))
        (Ideal.ofBits .f32 0x00000000#32)) (Ideal.ofBits .f32 0x3F000000#32)
      (Ideal.sqrt (Cert.NeighMsg.sqd x1 (val_main_v13 (F := Ideal) x1 x2) (ix2 p k)))
  rw [Ideal.ofBits_zero_f32, zero_add]

/-- The reference's distance array is the specification's: at node p and neighbour k it is the square root of
    Σ_t (P(p,t) − S(p,k,t))², replaced by 1/2 where that root is 0. The host's sum starts from the zero word,
    which is the real 0, so it adds nothing. -/
theorem dist1 (x1 : (⟨S262144x3, .f32⟩ : BufTy).Contents (Elt Ideal)) (x2 : (⟨S262144x8, .i32⟩ : BufTy).Contents (Elt Ideal)) :
    val_main_v53 (F := Ideal) x1 x2 = Cert.NeighMsg.dist x1 (val_main_v43 (F := Ideal) x1 x2) := by
  funext i
  obtain ⟨p, k, z, rfl⟩ : ∃ (p : Fin 262144) (k : Fin 8) (z : Fin 1), i = ix3 p k z := ⟨i 0, i 1, i 2, eq_ix3 i⟩
  have e19 : idx_main_v49 (ix3 p k z) = ix2 p k := funext fun a => by match a with | ⟨0, _⟩ => rfl | ⟨1, _⟩ => rfl
  have e18 : ∀ t : Fin 3, idx_main_v48 (ix2 p k) t = ix3 p k t := fun t => funext fun a => by
    match a with | ⟨0, _⟩ => rfl | ⟨1, _⟩ => rfl | ⟨2, _⟩ => rfl
  have e15 : ∀ t : Fin 3, idx_main_v44 (idx_main_v45 (ix3 p k t)) = ix2 p t := fun t => funext fun a => by
    match a with | ⟨0, _⟩ => rfl | ⟨1, _⟩ => rfl
  rw [val_main_v53_apply, val_main_v52_apply, val_main_v50_apply, val_main_v49_apply, e19, val_main_v48_apply,
    val_main_call1_v0_apply, val_main_cst_11_apply, val_main_v51_apply, val_main_cst_10_apply, val_main_cst_9_apply]
  simp only [e18, val_main_v47_apply, val_main_v46_apply, val_main_v45_apply, val_main_v44_apply, e15]
  show Scalar.select (Ideal.cmp .oeq (Ideal.sqrt (Ideal.ofBits .f32 0x00000000#32 + Cert.NeighMsg.sqd x1 (val_main_v43 (F := Ideal) x1 x2) (ix2 p k)))
        (Ideal.ofBits .f32 0x00000000#32)) (Ideal.ofBits .f32 0x3F000000#32)
      (Ideal.sqrt (Ideal.ofBits .f32 0x00000000#32 + Cert.NeighMsg.sqd x1 (val_main_v43 (F := Ideal) x1 x2) (ix2 p k)))
    = Scalar.select (Ideal.cmp .oeq (Ideal.sqrt (Cert.NeighMsg.sqd x1 (val_main_v43 (F := Ideal) x1 x2) (ix2 p k)))
        (Ideal.ofBits .f32 0x00000000#32)) (Ideal.ofBits .f32 0x3F000000#32)
      (Ideal.sqrt (Cert.NeighMsg.sqd x1 (val_main_v43 (F := Ideal) x1 x2) (ix2 p k)))
  rw [Ideal.ofBits_zero_f32, zero_add]

/-- The reference's distance array is the specification's: at node p and neighbour k it is the square root of
    Σ_t (P(p,t) − S(p,k,t))², replaced by 1/2 where that root is 0. The host's sum starts from the zero word,
    which is the real 0, so it adds nothing. -/
theorem dist2 (x1 : (⟨S262144x3, .f32⟩ : BufTy).Contents (Elt Ideal)) (x2 : (⟨S262144x8, .i32⟩ : BufTy).Contents (Elt Ideal)) :
    val_main_v88 (F := Ideal) x1 x2 = Cert.NeighMsg.dist x1 (val_main_v78 (F := Ideal) x1 x2) := by
  funext i
  obtain ⟨p, k, z, rfl⟩ : ∃ (p : Fin 262144) (k : Fin 8) (z : Fin 1), i = ix3 p k z := ⟨i 0, i 1, i 2, eq_ix3 i⟩
  have e19 : idx_main_v84 (ix3 p k z) = ix2 p k := funext fun a => by match a with | ⟨0, _⟩ => rfl | ⟨1, _⟩ => rfl
  have e18 : ∀ t : Fin 3, idx_main_v83 (ix2 p k) t = ix3 p k t := fun t => funext fun a => by
    match a with | ⟨0, _⟩ => rfl | ⟨1, _⟩ => rfl | ⟨2, _⟩ => rfl
  have e15 : ∀ t : Fin 3, idx_main_v79 (idx_main_v80 (ix3 p k t)) = ix2 p t := fun t => funext fun a => by
    match a with | ⟨0, _⟩ => rfl | ⟨1, _⟩ => rfl
  rw [val_main_v88_apply, val_main_v87_apply, val_main_v85_apply, val_main_v84_apply, e19, val_main_v83_apply,
    val_main_call3_v0_apply, val_main_cst_20_apply, val_main_v86_apply, val_main_cst_19_apply, val_main_cst_18_apply]
  simp only [e18, val_main_v82_apply, val_main_v81_apply, val_main_v80_apply, val_main_v79_apply, e15]
  show Scalar.select (Ideal.cmp .oeq (Ideal.sqrt (Ideal.ofBits .f32 0x00000000#32 + Cert.NeighMsg.sqd x1 (val_main_v78 (F := Ideal) x1 x2) (ix2 p k)))
        (Ideal.ofBits .f32 0x00000000#32)) (Ideal.ofBits .f32 0x3F000000#32)
      (Ideal.sqrt (Ideal.ofBits .f32 0x00000000#32 + Cert.NeighMsg.sqd x1 (val_main_v78 (F := Ideal) x1 x2) (ix2 p k)))
    = Scalar.select (Ideal.cmp .oeq (Ideal.sqrt (Cert.NeighMsg.sqd x1 (val_main_v78 (F := Ideal) x1 x2) (ix2 p k)))
        (Ideal.ofBits .f32 0x00000000#32)) (Ideal.ofBits .f32 0x3F000000#32)
      (Ideal.sqrt (Cert.NeighMsg.sqd x1 (val_main_v78 (F := Ideal) x1 x2) (ix2 p k)))
  rw [Ideal.ofBits_zero_f32, zero_add]

/-! ## The layers -/

/-- The input layer of the reference is the specification's quotient form: entry (p, j) is Σ_c (M(p, c / 16, c % 16) / d(p, c / 16, 0)) · W(c, j) + b(0, j), the reshape of the 8×16 block of a node's weighted messages to 128 columns reading column c back as neighbour c / 16 and feature c % 16. -/
theorem layer0 (x0 : (⟨S262144x16, .f32⟩ : BufTy).Contents (Elt Ideal)) (x1 : (⟨S262144x3, .f32⟩ : BufTy).Contents (Elt Ideal)) (x2 : (⟨S262144x8, .i32⟩ : BufTy).Contents (Elt Ideal)) (x3 : (⟨S128x128, .f32⟩ : BufTy).Contents (Elt Ideal)) (x4 : (⟨S1x128, .f32⟩ : BufTy).Contents (Elt Ideal)) :
    val_main_v29 (F := Ideal) x0 x1 x2 x3 x4 = Cert.NeighMsg.layerDiv (val_main_v6 (F := Ideal) x0 x2) (val_main_v23 (F := Ideal) x1 x2) x3 x4 := by
  funext i
  obtain ⟨p, j, rfl⟩ : ∃ (p : Fin 262144) (j : Fin 128), i = ix2 p j := ⟨i 0, i 1, eq_ix2 i⟩
  have el : ∀ k : Fin 128, lidx_main_v27 (ix2 p j) k = ix2 p k := fun k => funext fun a => by
    match a with | ⟨0, _⟩ => rfl | ⟨1, _⟩ => rfl
  have er : ∀ k : Fin 128, ridx_main_v27 (ix2 p j) k = ix2 k j := fun k => funext fun a => by
    match a with | ⟨0, _⟩ => rfl | ⟨1, _⟩ => rfl
  have eb : idx_main_v28 (ix2 p j) = ix2 (0 : Fin 1) j := funext fun a => by
    match a with | ⟨0, _⟩ => rfl | ⟨1, _⟩ => rfl
  have e26 : ∀ k : Fin 128, idx_main_v26 (ix2 p k) = ix3 p (Fin.divNat (m := 8) (n := 16) k) (Fin.modNat (m := 8) (n := 16) k) :=
    fun k => funext fun a => Fin.ext (by
      have hp : p.val < 262144 := p.isLt
      have hk : k.val < 128 := k.isLt
      match a with
      | ⟨0, _⟩ => show (p.val * 128 + k.val) / 128 = p.val; omega
      | ⟨1, _⟩ => show (p.val * 128 + k.val) / 16 % 8 = k.val / 16; omega
      | ⟨2, _⟩ => show (p.val * 128 + k.val) % 16 = k.val % 16; omega)
  have e24 : ∀ (q : Fin 8) (f : Fin 16), idx_main_v24 (ix3 p q f) = ix3 p q (0 : Fin 1) := fun q f => funext fun a => by
    match a with | ⟨0, _⟩ => rfl | ⟨1, _⟩ => rfl | ⟨2, _⟩ => rfl
  rw [val_main_v29_apply, val_main_v27_apply, val_main_v28_apply, eb]
  simp only [el, er, val_main_v26_apply, e26, val_main_v25_apply, val_main_v24_apply, e24]
  show (∑ c : Fin (8 * 16), Ideal.div (val_main_v6 (F := Ideal) x0 x2 (ix3 p c.divNat c.modNat)) (val_main_v23 (F := Ideal) x1 x2 (ix3 p c.divNat (0 : Fin 1))) * x3 (ix2 c j)) + x4 (ix2 (0 : Fin 1) j) = (∑ c : Fin (8 * 16), Ideal.div (val_main_v6 (F := Ideal) x0 x2 (ix3 p c.divNat c.modNat)) (val_main_v23 (F := Ideal) x1 x2 (ix3 p c.divNat (0 : Fin 1))) * x3 (ix2 c j)) + x4 (ix2 (0 : Fin 1) j)
  rfl

/-- The hidden layer of the reference is the leaky rectifier of the specification's quotient form: entry (p, j) is the rectifier of Σ_c (M(p, c / 128, c % 128) / d(p, c / 128, 0)) · W(c, j) + b(0, j), the reshape of the 8×128 block of a node's weighted messages to 1024 columns reading column c back as neighbour c / 128 and feature c % 128; the rectifier keeps x where x ≥ 0 and multiplies it by the slope word elsewhere. -/
theorem layer1 (x0 : (⟨S262144x16, .f32⟩ : BufTy).Contents (Elt Ideal)) (x1 : (⟨S262144x3, .f32⟩ : BufTy).Contents (Elt Ideal)) (x2 : (⟨S262144x8, .i32⟩ : BufTy).Contents (Elt Ideal)) (x3 : (⟨S128x128, .f32⟩ : BufTy).Contents (Elt Ideal)) (x4 : (⟨S1x128, .f32⟩ : BufTy).Contents (Elt Ideal)) (x5 : (⟨S1024x128, .f32⟩ : BufTy).Contents (Elt Ideal)) (x6 : (⟨S1x128, .f32⟩ : BufTy).Contents (Elt Ideal)) :
    val_main_v64 (F := Ideal) x0 x1 x2 x3 x4 x5 x6 = Cert.NeighMsg.lrelu (Cert.NeighMsg.layerDiv (val_main_v36 (F := Ideal) x0 x1 x2 x3 x4) (val_main_v53 (F := Ideal) x1 x2) x5 x6) := by
  funext i
  obtain ⟨p, j, rfl⟩ : ∃ (p : Fin 262144) (j : Fin 128), i = ix2 p j := ⟨i 0, i 1, eq_ix2 i⟩
  have el : ∀ k : Fin 1024, lidx_main_v57 (ix2 p j) k = ix2 p k := fun k => funext fun a => by
    match a with | ⟨0, _⟩ => rfl | ⟨1, _⟩ => rfl
  have er : ∀ k : Fin 1024, ridx_main_v57 (ix2 p j) k = ix2 k j := fun k => funext fun a => by
    match a with | ⟨0, _⟩ => rfl | ⟨1, _⟩ => rfl
  have eb : idx_main_v58 (ix2 p j) = ix2 (0 : Fin 1) j := funext fun a => by
    match a with | ⟨0, _⟩ => rfl | ⟨1, _⟩ => rfl
  have e26 : ∀ k : Fin 1024, idx_main_v56 (ix2 p k) = ix3 p (Fin.divNat (m := 8) (n := 128) k) (Fin.modNat (m := 8) (n := 128) k) :=
    fun k => funext fun a => Fin.ext (by
      have hp : p.val < 262144 := p.isLt
      have hk : k.val < 1024 := k.isLt
      match a with
      | ⟨0, _⟩ => show (p.val * 1024 + k.val) / 1024 = p.val; omega
      | ⟨1, _⟩ => show (p.val * 1024 + k.val) / 128 % 8 = k.val / 128; omega
      | ⟨2, _⟩ => show (p.val * 1024 + k.val) % 128 = k.val % 128; omega)
  have e24 : ∀ (q : Fin 8) (f : Fin 128), idx_main_v54 (ix3 p q f) = ix3 p q (0 : Fin 1) := fun q f => funext fun a => by
    match a with | ⟨0, _⟩ => rfl | ⟨1, _⟩ => rfl | ⟨2, _⟩ => rfl
  rw [val_main_v64_apply, val_main_v61_apply, val_main_v63_apply, val_main_v60_apply, val_main_cst_12_apply, val_main_v62_apply, val_main_cst_13_apply, val_main_v59_apply, val_main_v57_apply, val_main_v58_apply, eb]
  simp only [el, er, val_main_v56_apply, e26, val_main_v55_apply, val_main_v54_apply, e24]
  show Cert.NeighMsg.lreluE ((∑ c : Fin (8 * 128), Ideal.div (val_main_v36 (F := Ideal) x0 x1 x2 x3 x4 (ix3 p c.divNat c.modNat)) (val_main_v53 (F := Ideal) x1 x2 (ix3 p c.divNat (0 : Fin 1))) * x5 (ix2 c j)) + x6 (ix2 (0 : Fin 1) j)) = Cert.NeighMsg.lreluE ((∑ c : Fin (8 * 128), Ideal.div (val_main_v36 (F := Ideal) x0 x1 x2 x3 x4 (ix3 p c.divNat c.modNat)) (val_main_v53 (F := Ideal) x1 x2 (ix3 p c.divNat (0 : Fin 1))) * x5 (ix2 c j)) + x6 (ix2 (0 : Fin 1) j))
  rfl

/-- The output layer of the reference is the specification's quotient form: entry (p, j) is Σ_c (M(p, c / 128, c % 128) / d(p, c / 128, 0)) · W(c, j) + b(0, j), the reshape of the 8×128 block of a node's weighted messages to 1024 columns reading column c back as neighbour c / 128 and feature c % 128. -/
theorem layer2 (x0 : (⟨S262144x16, .f32⟩ : BufTy).Contents (Elt Ideal)) (x1 : (⟨S262144x3, .f32⟩ : BufTy).Contents (Elt Ideal)) (x2 : (⟨S262144x8, .i32⟩ : BufTy).Contents (Elt Ideal)) (x3 : (⟨S128x128, .f32⟩ : BufTy).Contents (Elt Ideal)) (x4 : (⟨S1x128, .f32⟩ : BufTy).Contents (Elt Ideal)) (x5 : (⟨S1024x128, .f32⟩ : BufTy).Contents (Elt Ideal)) (x6 : (⟨S1x128, .f32⟩ : BufTy).Contents (Elt Ideal)) (x7 : (⟨S1024x16, .f32⟩ : BufTy).Contents (Elt Ideal)) (x8 : (⟨S1x16, .f32⟩ : BufTy).Contents (Elt Ideal)) :
    val_main_v94 (F := Ideal) x0 x1 x2 x3 x4 x5 x6 x7 x8 = Cert.NeighMsg.layerDiv (val_main_v71 (F := Ideal) x0 x1 x2 x3 x4 x5 x6) (val_main_v88 (F := Ideal) x1 x2) x7 x8 := by
  funext i
  obtain ⟨p, j, rfl⟩ : ∃ (p : Fin 262144) (j : Fin 16), i = ix2 p j := ⟨i 0, i 1, eq_ix2 i⟩
  have el : ∀ k : Fin 1024, lidx_main_v92 (ix2 p j) k = ix2 p k := fun k => funext fun a => by
    match a with | ⟨0, _⟩ => rfl | ⟨1, _⟩ => rfl
  have er : ∀ k : Fin 1024, ridx_main_v92 (ix2 p j) k = ix2 k j := fun k => funext fun a => by
    match a with | ⟨0, _⟩ => rfl | ⟨1, _⟩ => rfl
  have eb : idx_main_v93 (ix2 p j) = ix2 (0 : Fin 1) j := funext fun a => by
    match a with | ⟨0, _⟩ => rfl | ⟨1, _⟩ => rfl
  have e26 : ∀ k : Fin 1024, idx_main_v91 (ix2 p k) = ix3 p (Fin.divNat (m := 8) (n := 128) k) (Fin.modNat (m := 8) (n := 128) k) :=
    fun k => funext fun a => Fin.ext (by
      have hp : p.val < 262144 := p.isLt
      have hk : k.val < 1024 := k.isLt
      match a with
      | ⟨0, _⟩ => show (p.val * 1024 + k.val) / 1024 = p.val; omega
      | ⟨1, _⟩ => show (p.val * 1024 + k.val) / 128 % 8 = k.val / 128; omega
      | ⟨2, _⟩ => show (p.val * 1024 + k.val) % 128 = k.val % 128; omega)
  have e24 : ∀ (q : Fin 8) (f : Fin 128), idx_main_v89 (ix3 p q f) = ix3 p q (0 : Fin 1) := fun q f => funext fun a => by
    match a with | ⟨0, _⟩ => rfl | ⟨1, _⟩ => rfl | ⟨2, _⟩ => rfl
  rw [val_main_v94_apply, val_main_v92_apply, val_main_v93_apply, eb]
  simp only [el, er, val_main_v91_apply, e26, val_main_v90_apply, val_main_v89_apply, e24]
  show (∑ c : Fin (8 * 128), Ideal.div (val_main_v71 (F := Ideal) x0 x1 x2 x3 x4 x5 x6 (ix3 p c.divNat c.modNat)) (val_main_v88 (F := Ideal) x1 x2 (ix3 p c.divNat (0 : Fin 1))) * x7 (ix2 c j)) + x8 (ix2 (0 : Fin 1) j) = (∑ c : Fin (8 * 128), Ideal.div (val_main_v71 (F := Ideal) x0 x1 x2 x3 x4 x5 x6 (ix3 p c.divNat c.modNat)) (val_main_v88 (F := Ideal) x1 x2 (ix3 p c.divNat (0 : Fin 1))) * x7 (ix2 c j)) + x8 (ix2 (0 : Fin 1) j)
  rfl

end Cert.RefLayers

end
-- ==== Proof.RefNet.lean ====
/-
  The reference program's result as the three-layer network in quotient form.

  The reference gathers by the same wrapped neighbour table as the kernel's program and with the same gather
  dimensions, so its six gathers are the kernel program's gather functions. Layer by layer its stages are the
  quotient-form layer of the gathered messages and the distances, and the distances are the distance function of
  the positions and the gathered neighbour positions; composed, its result is the network in quotient form.
-/
import proofs.«154351_j70523363000700_2_alg».proof.Proof.Gen.ReferenceIdeal.Read
import proofs.«154351_j70523363000700_2_alg».proof.Proof.RefLayers
import proofs.«154351_j70523363000700_2_alg».proof.Proof.KernelValue

noncomputable section

namespace Cert.RefNet

open Cert.ReferenceIdeal.Read Idealize.ShloMosaic Idealize.ShloMosaic.ValueIdx
open Cert.Dense Cert.NeighMsg Cert.NeighNet Cert.KernelValue

variable (x0 : (⟨Cert.ReferenceIdeal.S262144x16, .f32⟩ : BufTy).Contents (Elt Ideal)) (x1 : (⟨Cert.ReferenceIdeal.S262144x3, .f32⟩ : BufTy).Contents (Elt Ideal)) (x2 : (⟨Cert.ReferenceIdeal.S262144x8, .i32⟩ : BufTy).Contents (Elt Ideal))
  (x3 : (⟨Cert.ReferenceIdeal.S128x128, .f32⟩ : BufTy).Contents (Elt Ideal)) (x4 : (⟨Cert.ReferenceIdeal.S1x128, .f32⟩ : BufTy).Contents (Elt Ideal)) (x5 : (⟨Cert.ReferenceIdeal.S1024x128, .f32⟩ : BufTy).Contents (Elt Ideal)) (x6 : (⟨Cert.ReferenceIdeal.S1x128, .f32⟩ : BufTy).Contents (Elt Ideal))
  (x7 : (⟨Cert.ReferenceIdeal.S1024x16, .f32⟩ : BufTy).Contents (Elt Ideal)) (x8 : (⟨Cert.ReferenceIdeal.S1x16, .f32⟩ : BufTy).Contents (Elt Ideal))

/-! ## The reference's gathers are the kernel program's -/

theorem gather_v6 : val_main_v6 (F := Ideal) x0 x2 = gather16 x2 x0 := rfl
theorem gather_v13 : val_main_v13 (F := Ideal) x1 x2 = gather3 x2 x1 := rfl
theorem gather_v43 : val_main_v43 (F := Ideal) x1 x2 = gather3 x2 x1 := rfl
theorem gather_v78 : val_main_v78 (F := Ideal) x1 x2 = gather3 x2 x1 := rfl
theorem gather_v36 : val_main_v36 (F := Ideal) x0 x1 x2 x3 x4 = gather128 x2 (val_main_v29 (F := Ideal) x0 x1 x2 x3 x4) := rfl
theorem gather_v71 : val_main_v71 (F := Ideal) x0 x1 x2 x3 x4 x5 x6 = gather128 x2 (val_main_v64 (F := Ideal) x0 x1 x2 x3 x4 x5 x6) := rfl

/-- The reference's result is the network in quotient form. -/
theorem ref_eq : val_main_v94 (F := Ideal) x0 x1 x2 x3 x4 x5 x6 x7 x8
    = netDiv (K := 8) (gather16 x2) (gather3 x2) (gather128 x2) (gather128 x2) x0 x1 x3 x4 x5 x6 x7 x8 := by
  rw [Cert.RefLayers.layer2, gather_v71, Cert.RefLayers.layer1, gather_v36, Cert.RefLayers.layer0, gather_v6,
    Cert.RefLayers.dist0, Cert.RefLayers.dist1, Cert.RefLayers.dist2, gather_v13, gather_v43, gather_v78]
  rfl

end Cert.RefNet

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«154351_j70523363000700_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«154351_j70523363000700_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.PreFinite.lean ====
/-
  The precondition, decoded for the positions.

  The precondition is the conjunction, over the eight float inputs, of "every entry has absolute value below +∞";
  it holds when the conjunction is the bit 1. A conjunction of bits that is 1 has every conjunct 1, so the
  positions' conjunct is 1, and then every position entry is a real number.
-/
import proofs.«154351_j70523363000700_2_alg».proof.Pre_finite_inputs
import proofs.«154351_j70523363000700_2_alg».proof.Proof.LibFinite

noncomputable section

namespace Cert.PreFinite

open Idealize.ShloMosaic Idealize.ShloMosaic.ValueIdx Cert.Pre_finite_inputs Cert.Pre_finite_inputs.Facts

/-- Under the precondition every entry of the position array is real. -/
theorem pos_real [Cert.Pre_finite_inputs.Facts]
    (a0 : FVec Ideal S262144x16 .f32) (a1 : FVec Ideal S262144x3 .f32) (a2 : IVec S262144x8 32) (a3 : FVec Ideal S128x128 .f32)
    (a4 : FVec Ideal S1x128 .f32) (a5 : FVec Ideal S1024x128 .f32) (a6 : FVec Ideal S1x128 .f32) (a7 : FVec Ideal S1024x16 .f32)
    (a8 : FVec Ideal S1x16 .f32)
    (h : fn (F := Ideal) a0 a1 a2 a3 a4 a5 a6 a7 a8 = fun _ => 1#1) : Cert.Gcn.Finite a1 := by
  have h0 : fn (F := Ideal) a0 a1 a2 a3 a4 a5 a6 a7 a8 ix0 = 1#1 := congrFun h ix0
  dsimp only [fn, fn_part1, fn_part2] at h0
  have e33 := (IntOp.andi_eq_one.1 h0).1
  have e28 := (IntOp.andi_eq_one.1 e33).1
  have e23 := (IntOp.andi_eq_one.1 e28).1
  have e18 := (IntOp.andi_eq_one.1 e23).1
  have e13 := (IntOp.andi_eq_one.1 e18).1
  have e8 := (IntOp.andi_eq_one.1 e13).1
  have e7 := (IntOp.andi_eq_one.1 e8).2
  exact Cert.Gcn.finite_of_all a1 bcast_S_S262144x3 reducesTo_S262144x3_S_d0_1 h_S_ e7

end Cert.PreFinite

end
-- ==== Proof.lean ====
/-
  The certificate: a three-layer message-passing network over a fixed neighbour table, computed by three pipelined
  kernels with host gathers between them, against the plain array program.

  Each layer gathers the rows of every node's 8 neighbours, weights neighbour k's row by its distance to the node,
  lays the 8 weighted rows side by side, multiplies by a weight matrix and adds a bias row; the hidden layer is
  followed by a leaky rectifier. The kernels multiply by a factor computed once (2 at distance 0, 1/√q elsewhere,
  q the squared distance) and sum neighbour by neighbour; the reference divides by the distance (1/2 at distance 0,
  √q elsewhere) in every layer and sums over the 8·D flattened columns. On the extended reals the two are one
  function as soon as the positions are real numbers, which the precondition gives: q is then a real ≥ 0, √q = 0
  exactly when q = 0, a quotient by a nonzero real is the product with its reciprocal on every extended real, and a
  finite sum may be regrouped freely. A change of float format is the identity on the extended reals.

  The three frames are the generated ones (the reference's is its generated run with the result dropped); the
  idealization rewrote nothing, so its preservation claim is trivial.
-/
import proofs.«154351_j70523363000700_2_alg».proof.Defs
import proofs.«154351_j70523363000700_2_alg».proof.Proof.Gen.Kernel
import proofs.«154351_j70523363000700_2_alg».proof.Proof.Gen.Kernel.Frame
import proofs.«154351_j70523363000700_2_alg».proof.Proof.Gen.KernelIdeal
import proofs.«154351_j70523363000700_2_alg».proof.Proof.Gen.KernelIdeal.Frame
import proofs.«154351_j70523363000700_2_alg».proof.Proof.Gen.ReferenceIdeal
import proofs.«154351_j70523363000700_2_alg».proof.Proof.Gen.Pre_finite_inputs
import proofs.«154351_j70523363000700_2_alg».proof.Proof.Gen.ReferenceIdeal.Run
import proofs.«154351_j70523363000700_2_alg».proof.Proof.Gen.ReferenceIdeal.Read
import proofs.«154351_j70523363000700_2_alg».proof.Proof.KernelRun
import proofs.«154351_j70523363000700_2_alg».proof.Proof.KernelBody0
import proofs.«154351_j70523363000700_2_alg».proof.Proof.KernelBody1
import proofs.«154351_j70523363000700_2_alg».proof.Proof.KernelBody2
import proofs.«154351_j70523363000700_2_alg».proof.Proof.KernelValue
import proofs.«154351_j70523363000700_2_alg».proof.Proof.RefNet
import proofs.«154351_j70523363000700_2_alg».proof.Proof.PreFinite
import Idealize.ShloMosaic.Adequacy
import Idealize.ShloMosaic.Init

noncomputable section

namespace Cert.Proof

open Idealize.ShloMosaic Idealize.ShloMosaic.TcCoe Idealize.SL.Sem
open Cert.Dense Cert.NeighMsg Cert.NeighNet Cert.KernelValue

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the three-layer network of the arguments: the kernel's in product form (the
    boundaries composed), the reference's in quotient form (its stages composed); for real positions these agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => netMul (K := 8)
      (gather16 (m ((c.tc : Thread Cert.KernelIdeal.nD Cert.KernelIdeal.τ).loc Cert.KernelIdeal.main_arg2)))
      (gather3 (m ((c.tc : Thread Cert.KernelIdeal.nD Cert.KernelIdeal.τ).loc Cert.KernelIdeal.main_arg2)))
      (gather128 (m ((c.tc : Thread Cert.KernelIdeal.nD Cert.KernelIdeal.τ).loc Cert.KernelIdeal.main_arg2)))
      (gather128 (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelValue.result m ρ
          (fun x0 x1 x2 x3 x4 => Cert.KernelBody0.out0_6_eq x0 x1 x2 x3 x4)
          (fun x0 x1 x2 x3 x4 => Cert.KernelBody0.out0_5_eq x0 x1 x2 x3 x4)
          (fun x0 x1 x2 x3 => Cert.KernelBody1.out1_4_eq x0 x1 x2 x3)
          (fun x0 x1 x2 x3 => Cert.KernelBody2.out2_4_eq x0 x1 x2 x3) c), (h c).2⟩)
      (Cert.KernelRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v94_eq, Cert.RefNet.ref_eq, e0, e1, e2, e3, e4, e5, e6, e7, e8]
    have hP : Cert.Gcn.Finite (m ((c.tc : Thread Cert.KernelIdeal.nD Cert.KernelIdeal.τ).loc Cert.KernelIdeal.main_arg1)) :=
      Cert.PreFinite.pos_real _ _ _ _ _ _ _ _ _ (hpre c)
    exact (netMul_eq_netDiv (K := 8) _ _ _ _ _ _ _ _ _ _ _ _ hP (fun i => hP _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
